-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1048576x8 : Shape := ⟨2, ![1048576, 8]⟩
abbrev S1048576x4 : Shape := ⟨2, ![1048576, 4]⟩
abbrev S25x25 : Shape := ⟨2, ![25, 25]⟩
abbrev S25 : Shape := ⟨1, ![25]⟩
abbrev S20x25 : Shape := ⟨2, ![20, 25]⟩
abbrev S20 : Shape := ⟨1, ![20]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S1048576x8 : S_.BroadcastsInDim S1048576x8 (![] : Fin 0 → Fin S1048576x8.rank)
  reducesTo_S1048576x8_S_d0_1 : S1048576x8.ReducesTo [0, 1] S_
  bcast_S_S1048576x4 : S_.BroadcastsInDim S1048576x4 (![] : Fin 0 → Fin S1048576x4.rank)
  reducesTo_S1048576x4_S_d0_1 : S1048576x4.ReducesTo [0, 1] S_
  bcast_S_S25x25 : S_.BroadcastsInDim S25x25 (![] : Fin 0 → Fin S25x25.rank)
  reducesTo_S25x25_S_d0_1 : S25x25.ReducesTo [0, 1] S_
  bcast_S_S25 : S_.BroadcastsInDim S25 (![] : Fin 0 → Fin S25.rank)
  reducesTo_S25_S_d0 : S25.ReducesTo [0] S_
  bcast_S_S20x25 : S_.BroadcastsInDim S20x25 (![] : Fin 0 → Fin S20x25.rank)
  reducesTo_S20x25_S_d0_1 : S20x25.ReducesTo [0, 1] S_
  bcast_S_S20 : S_.BroadcastsInDim S20 (![] : Fin 0 → Fin S20.rank)
  reducesTo_S20_S_d0 : S20.ReducesTo [0] S_

variable [Facts]

def fn_part3 {F : FTy → Type} [FloatOps F] (main_arg11 : FVec F S20 .f32) (main_v48 : IVec S_ 1) (main_v49 : FVec F S20x25 .f32) (main_v50 : FVec F S20x25 .f32) : IVec S_ 1 :=
  let main_v51 : IVec S20x25 1 := cmpf .olt main_v49 main_v50
  let main_c_19 : IVec S_ 1 := constantI S_ 1 1#1
  let main_v52 : IVec S_ 1 := (fun x v => Host.reduce IntOp.andi x v reducesTo_S20x25_S_d0_1 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  main_v58

def fn_part2 {F : FTy → Type} [FloatOps F] (main_arg7 : FVec F S1048576x4 .f32) (main_arg8 : FVec F S25x25 .f32) (main_arg9 : FVec F S25 .f32) (main_arg10 : FVec F S20x25 .f32) (main_arg11 : FVec F S20 .f32) (main_v33 : IVec S_ 1) : IVec S_ 1 :=
  let main_v34 : FVec F S1048576x4 .f32 := Host.absf main_arg7
  let main_cst_12 : FVec F S_ .f32 := constant S_ .f32 0x7F800000#32
  let main_v35 : FVec F S1048576x4 .f32 := broadcastInDim S1048576x4 ![] bcast_S_S1048576x4 main_cst_12
  let main_v36 : IVec S1048576x4 1 := cmpf .olt main_v34 main_v35
  let main_c_13 : IVec S_ 1 := constantI S_ 1 1#1
  let main_v37 : IVec S_ 1 := (fun x v => Host.reduce IntOp.andi x v reducesTo_S1048576x4_S_d0_1 h_S_) main_v36 main_c_13
  let main_v38 : IVec S_ 1 := andi main_v33 main_v37
  let main_v39 : FVec F S25x25 .f32 := Host.absf main_arg8
  let main_cst_14 : FVec F S_ .f32 := constant S_ .f32 0x7F800000#32
  let main_v40 : FVec F S25x25 .f32 := broadcastInDim S25x25 ![] bcast_S_S25x25 main_cst_14
  let main_v41 : IVec S25x25 1 := cmpf .olt main_v39 main_v40
  let main_c_15 : IVec S_ 1 := constantI S_ 1 1#1
  let main_v42 : IVec S_ 1 := (fun x v => Host.reduce IntOp.andi x v reducesTo_S25x25_S_d0_1 h_S_) main_v41 main_c_15
  let main_v43 : IVec S_ 1 := andi main_v38 main_v42
  let main_v44 : FVec F S25 .f32 := Host.absf main_arg9
  let main_cst_16 : FVec F S_ .f32 := constant S_ .f32 0x7F800000#32
  let main_v45 : FVec F S25 .f32 := broadcastInDim S25 ![] bcast_S_S25 main_cst_16
  let main_v46 : IVec S25 1 := cmpf .olt main_v44 main_v45
  let main_c_17 : IVec S_ 1 := constantI S_ 1 1#1
  let main_v47 : IVec S_ 1 := (fun x v => Host.reduce IntOp.andi x v reducesTo_S25_S_d0 h_S_) main_v46 main_c_17
  let main_v48 : IVec S_ 1 := andi main_v43 main_v47
  let main_v49 : FVec F S20x25 .f32 := Host.absf main_arg10
  let main_cst_18 : FVec F S_ .f32 := constant S_ .f32 0x7F800000#32
  let main_v50 : FVec F S20x25 .f32 := broadcastInDim S20x25 ![] bcast_S_S20x25 main_cst_18
  fn_part3 (F := F) main_arg11 main_v48 main_v49 main_v50

def fn_part1 {F : FTy → Type} [FloatOps F] (main_arg4 : FVec F S1048576x8 .f32) (main_arg5 : FVec F S1048576 .f32) (main_arg6 : FVec F S1048576 .f32) (main_arg7 : FVec F S1048576x4 .f32) (main_arg8 : FVec F S25x25 .f32) (main_arg9 : FVec F S25 .f32) (main_arg10 : FVec F S20x25 .f32) (main_arg11 : FVec F S20 .f32) (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  let main_v19 : FVec F S1048576x8 .f32 := Host.absf main_arg4
  let main_cst_6 : FVec F S_ .f32 := constant S_ .f32 0x7F800000#32
  let main_v20 : FVec F S1048576x8 .f32 := broadcastInDim S1048576x8 ![] bcast_S_S1048576x8 main_cst_6
  let main_v21 : IVec S1048576x8 1 := cmpf .olt main_v19 main_v20
  let main_c_7 : IVec S_ 1 := constantI S_ 1 1#1
  let main_v22 : IVec S_ 1 := (fun x v => Host.reduce IntOp.andi x v reducesTo_S1048576x8_S_d0_1 h_S_) main_v21 main_c_7
  let main_v23 : IVec S_ 1 := andi main_v18 main_v22
  let main_v24 : FVec F S1048576 .f32 := Host.absf main_arg5
  let main_cst_8 : FVec F S_ .f32 := constant S_ .f32 0x7F800000#32
  let main_v25 : FVec F S1048576 .f32 := broadcastInDim S1048576 ![] bcast_S_S1048576 main_cst_8
  let main_v26 : IVec S1048576 1 := cmpf .olt main_v24 main_v25
  let main_c_9 : IVec S_ 1 := constantI S_ 1 1#1
  let main_v27 : IVec S_ 1 := (fun x v => Host.reduce IntOp.andi x v reducesTo_S1048576_S_d0 h_S_) main_v26 main_c_9
  let main_v28 : IVec S_ 1 := andi main_v23 main_v27
  let main_v29 : FVec F S1048576 .f32 := Host.absf main_arg6
  let main_cst_10 : FVec F S_ .f32 := constant S_ .f32 0x7F800000#32
  let main_v30 : FVec F S1048576 .f32 := broadcastInDim S1048576 ![] bcast_S_S1048576 main_cst_10
  let main_v31 : IVec S1048576 1 := cmpf .olt main_v29 main_v30
  let main_c_11 : IVec S_ 1 := constantI S_ 1 1#1
  let main_v32 : IVec S_ 1 := (fun x v => Host.reduce IntOp.andi x v reducesTo_S1048576_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1048576 .f32) (main_arg1 : FVec F S1048576x8 .f32) (main_arg2 : FVec F S1048576 .f32) (main_arg3 : FVec F S1048576 .f32) (main_arg4 : FVec F S1048576x8 .f32) (main_arg5 : FVec F S1048576 .f32) (main_arg6 : FVec F S1048576 .f32) (main_arg7 : FVec F S1048576x4 .f32) (main_arg8 : FVec F S25x25 .f32) (main_arg9 : FVec F S25 .f32) (main_arg10 : FVec F S20x25 .f32) (main_arg11 : FVec F S20 .f32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576x8 .f32 := Host.absf main_arg1
  let main_cst_0 : FVec F S_ .f32 := constant S_ .f32 0x7F800000#32
  let main_v5 : FVec F S1048576x8 .f32 := broadcastInDim S1048576x8 ![] bcast_S_S1048576x8 main_cst_0
  let main_v6 : IVec S1048576x8 1 := cmpf .olt main_v4 main_v5
  let main_c_1 : IVec S_ 1 := constantI S_ 1 1#1
  let main_v7 : IVec S_ 1 := (fun x v => Host.reduce IntOp.andi x v reducesTo_S1048576x8_S_d0_1 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_arg4 main_arg5 main_arg6 main_arg7 main_arg8 main_arg9 main_arg10 main_arg11 main_v13 main_v16
-- ==== Kernel.lean ====
abbrev S1048576 : Shape := ⟨1, ![1048576]⟩
abbrev S1048576x8 : Shape := ⟨2, ![1048576, 8]⟩
abbrev S1048576x4 : Shape := ⟨2, ![1048576, 4]⟩
abbrev S25x25 : Shape := ⟨2, ![25, 25]⟩
abbrev S25 : Shape := ⟨1, ![25]⟩
abbrev S20x25 : Shape := ⟨2, ![20, 25]⟩
abbrev S20 : Shape := ⟨1, ![20]⟩
abbrev S1048576x1 : Shape := ⟨2, ![1048576, 1]⟩
abbrev S2048x1 : Shape := ⟨2, ![2048, 1]⟩
abbrev S2048x8 : Shape := ⟨2, ![2048, 8]⟩
abbrev S2048x4 : Shape := ⟨2, ![2048, 4]⟩
abbrev S2048x25 : Shape := ⟨2, ![2048, 25]⟩
abbrev S1x25 : Shape := ⟨2, ![1, 25]⟩
abbrev S25x20 : Shape := ⟨2, ![25, 20]⟩
abbrev S2048x20 : Shape := ⟨2, ![2048, 20]⟩
abbrev S1x20 : Shape := ⟨2, ![1, 20]⟩

abbrev nBuf : Space → Nat
  | .hbm => 20
  | .vmem => 26
  | .smem => 0
  | _ => 0

abbrev bufTy : (tb : Table) → Fin (tcTables nBuf tb) → BufTy
  | .hbm, ⟨0, _⟩ => ⟨S1048576, .f32⟩
  | .hbm, ⟨1, _⟩ => ⟨S1048576x8, .f32⟩
  | .hbm, ⟨2, _⟩ => ⟨S1048576, .f32⟩
  | .hbm, ⟨3, _⟩ => ⟨S1048576, .f32⟩
  | .hbm, ⟨4, _⟩ => ⟨S1048576x8, .f32⟩
  | .hbm, ⟨5, _⟩ => ⟨S1048576, .f32⟩
  | .hbm, ⟨6, _⟩ => ⟨S1048576, .f32⟩
  | .hbm, ⟨7, _⟩ => ⟨S1048576x4, .f32⟩
  | .hbm, ⟨8, _⟩ => ⟨S25x25, .f32⟩
  | .hbm, ⟨9, _⟩ => ⟨S25, .f32⟩
  | .hbm, ⟨10, _⟩ => ⟨S20x25, .f32⟩
  | .hbm, ⟨11, _⟩ => ⟨S20, .f32⟩
  | .hbm, ⟨12, _⟩ => ⟨S1048576x1, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S1048576x1, .f32⟩
  | .hbm, ⟨17, _⟩ => ⟨S1048576x8, .f32⟩
  | .hbm, ⟨18, _⟩ => ⟨S1048576x8, .f32⟩
  | .hbm, ⟨19, _⟩ => ⟨S1048576x4, .f32⟩
  | .local _ .vmem, ⟨0, _⟩ => ⟨S2048x1, .f32⟩
  | .local _ .vmem, ⟨1, _⟩ => ⟨S2048x1, .f32⟩
  | .local _ .vmem, ⟨2, _⟩ => ⟨S2048x8, .f32⟩
  | .local _ .vmem, ⟨3, _⟩ => ⟨S2048x8, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x8, .f32⟩
  | .local _ .vmem, ⟨9, _⟩ => ⟨S2048x8, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x4, .f32⟩
  | .local _ .vmem, ⟨15, _⟩ => ⟨S2048x4, .f32⟩
  | .local _ .vmem, ⟨16, _⟩ => ⟨S25x25, .f32⟩
  | .local _ .vmem, ⟨17, _⟩ => ⟨S25, .f32⟩
  | .local _ .vmem, ⟨18, _⟩ => ⟨S20x25, .f32⟩
  | .local _ .vmem, ⟨19, _⟩ => ⟨S20, .f32⟩
  | .local _ .vmem, ⟨20, _⟩ => ⟨S2048x8, .f32⟩
  | .local _ .vmem, ⟨21, _⟩ => ⟨S2048x8, .f32⟩
  | .local _ .vmem, ⟨22, _⟩ => ⟨S2048x8, .f32⟩
  | .local _ .vmem, ⟨23, _⟩ => ⟨S2048x8, .f32⟩
  | .local _ .vmem, ⟨24, _⟩ => ⟨S2048x4, .f32⟩
  | .local _ .vmem, ⟨25, _⟩ => ⟨S2048x4, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S25x25 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S25 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S20x25 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S1048576_S1048576x1 : S1048576.ShapeCasts S1048576x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x8_S2048x8_0_0 : ∀ a, (![0, 0] : Fin 2 → Nat) a + S2048x8.size a ≤ S2048x8.size a
  h_S2048x8 : 0 < S2048x8.numel
  inb_S2048x4_S2048x4_0_0 : ∀ a, (![0, 0] : Fin 2 → Nat) a + S2048x4.size a ≤ S2048x4.size a
  h_S2048x4 : 0 < S2048x4.numel
  concatenates_S2048x1_S2048x8_S2048x1_S2048x1_S2048x8_S2048x1_S2048x1_S2048x4_S2048x25_d1 : Shape.Concatenates [S2048x1, S2048x8, S2048x1, S2048x1, S2048x8, S2048x1, S2048x1, S2048x4] S2048x25 1
  inb_S25x25_S25x25_0_0 : ∀ a, (![0, 0] : Fin 2 → Nat) a + S25x25.size a ≤ S25x25.size a
  h_S25x25 : 0 < S25x25.numel
  transposes_S25x25_p1_0_S25x25 : S25x25.Transposes [1, 0] S25x25
  inb_S25_S25_0 : ∀ a, (![0] : Fin 1 → Nat) a + S25.size a ≤ S25.size a
  h_S25 : 0 < S25.numel
  shapeCasts_S25_S1x25 : S25.ShapeCasts S1x25
  broadcasts_S1x25_S2048x25 : S1x25.Broadcasts S2048x25
  inb_S20x25_S20x25_0_0 : ∀ a, (![0, 0] : Fin 2 → Nat) a + S20x25.size a ≤ S20x25.size a
  h_S20x25 : 0 < S20x25.numel
  transposes_S20x25_p1_0_S25x20 : S20x25.Transposes [1, 0] S25x20
  inb_S20_S20_0 : ∀ a, (![0] : Fin 1 → Nat) a + S20.size a ≤ S20.size a
  h_S20 : 0 < S20.numel
  shapeCasts_S20_S1x20 : S20.ShapeCasts S1x20
  broadcasts_S1x20_S2048x20 : S1x20.Broadcasts S2048x20
  slices_S2048x20_o0_0_S2048x8 : S2048x20.Slices ![0, 0] S2048x8
  slices_S2048x20_o0_8_S2048x8 : S2048x20.Slices ![0, 8] S2048x8
  slices_S2048x20_o0_16_S2048x4 : S2048x20.Slices ![0, 16] S2048x4
  dot_S2048x25_S25x25_S2048x25_1_0_0_1_n_n_wf : DotDims.WF S2048x25 S25x25 S2048x25 [1] [0] [0] [1] [] []
  dot_S2048x25_S25x20_S2048x20_1_0_0_1_n_n_wf : DotDims.WF S2048x25 S25x20 S2048x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S1048576x1.size a
  hwx0_0 : ∀ i : grid0.Coords, EltTy.bits .f32 = 32 ∨ (Rect.block (s := S1048576x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S1048576x8.size a
  hwx0_1 : ∀ i : grid0.Coords, EltTy.bits .f32 = 32 ∨ (Rect.block (s := S1048576x8) S2048x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S1048576x1.size a
  hwx0_2 : ∀ i : grid0.Coords, EltTy.bits .f32 = 32 ∨ (Rect.block (s := S1048576x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S1048576x1.size a
  hwx0_3 : ∀ i : grid0.Coords, EltTy.bits .f32 = 32 ∨ (Rect.block (s := S1048576x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S1048576x8.size a
  hwx0_4 : ∀ i : grid0.Coords, EltTy.bits .f32 = 32 ∨ (Rect.block (s := S1048576x8) S2048x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S1048576x1.size a
  hwx0_5 : ∀ i : grid0.Coords, EltTy.bits .f32 = 32 ∨ (Rect.block (s := S1048576x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S1048576x1.size a
  hwx0_6 : ∀ i : grid0.Coords, EltTy.bits .f32 = 32 ∨ (Rect.block (s := S1048576x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x4.size a ≤ S1048576x4.size a
  hwx0_7 : ∀ i : grid0.Coords, EltTy.bits .f32 = 32 ∨ (Rect.block (s := S1048576x4) S2048x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S25x25.size a ≤ S25x25.size a
  hwx0_8 : ∀ i : grid0.Coords, EltTy.bits .f32 = 32 ∨ (Rect.block (s := S25x25) S25x25.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S25.size a ≤ S25.size a
  hwx0_9 : ∀ i : grid0.Coords, EltTy.bits .f32 = 32 ∨ (Rect.block (s := S25) S25.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S20x25.size a ≤ S20x25.size a
  hwx0_10 : ∀ i : grid0.Coords, EltTy.bits .f32 = 32 ∨ (Rect.block (s := S20x25) S20x25.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S20.size a ≤ S20.size a
  hwx0_11 : ∀ i : grid0.Coords, EltTy.bits .f32 = 32 ∨ (Rect.block (s := S20) S20.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x8.size a ≤ S1048576x8.size a
  hwx0_12 : ∀ i : grid0.Coords, EltTy.bits .f32 = 32 ∨ (Rect.block (s := S1048576x8) S2048x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x8.size a ≤ S1048576x8.size a
  hwx0_13 : ∀ i : grid0.Coords, EltTy.bits .f32 = 32 ∨ (Rect.block (s := S1048576x8) S2048x8.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x4.size a ≤ S1048576x4.size a
  hwx0_14 : ∀ i : grid0.Coords, EltTy.bits .f32 = 32 ∨ (Rect.block (s := S1048576x4) S2048x4.size (cc0_transform_14 i) (hinb0_14 i)).WholeWords (EltTy.packing .f32)

variable [Facts₀]

def dot_S2048x25_S25x25_S2048x25_1_0_0_1_n_n : DotDims S2048x25 S25x25 S2048x25 where
  lhsContracting := [1]
  rhsContracting := [0]
  lhsNonContracting := [0]
  rhsNonContracting := [1]
  lhsBatch := []
  rhsBatch := []
  wf := dot_S2048x25_S25x25_S2048x25_1_0_0_1_n_n_wf
def dot_S2048x25_S25x20_S2048x20_1_0_0_1_n_n : DotDims S2048x25 S25x20 S2048x20 where
  lhsContracting := [1]
  rhsContracting := [0]
  lhsNonContracting := [0]
  rhsNonContracting := [1]
  lhsBatch := []
  rhsBatch := []
  wf := dot_S2048x25_S25x20_S2048x20_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x4.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S25x25.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S25.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S20x25.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_0) S2048x8.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_1) S2048x8.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_2) S2048x4.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1048576 : Shape := ⟨1, ![1048576]⟩
abbrev S1048576x8 : Shape := ⟨2, ![1048576, 8]⟩
abbrev S1048576x4 : Shape := ⟨2, ![1048576, 4]⟩
abbrev S25x25 : Shape := ⟨2, ![25, 25]⟩
abbrev S25 : Shape := ⟨1, ![25]⟩
abbrev S20x25 : Shape := ⟨2, ![20, 25]⟩
abbrev S20 : Shape := ⟨1, ![20]⟩
abbrev S1048576x1 : Shape := ⟨2, ![1048576, 1]⟩
abbrev S1048576x25 : Shape := ⟨2, ![1048576, 25]⟩
abbrev S1x25 : Shape := ⟨2, ![1, 25]⟩
abbrev S_ : Shape := ⟨0, ![]⟩
abbrev S25x20 : Shape := ⟨2, ![25, 20]⟩
abbrev S1048576x20 : Shape := ⟨2, ![1048576, 20]⟩
abbrev S1x20 : Shape := ⟨2, ![1, 20]⟩

abbrev nBuf : Space → Nat
  | .hbm => 37
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576x8, .f32⟩
  | .hbm, ⟨2, _⟩ => ⟨S1048576, .f32⟩
  | .hbm, ⟨3, _⟩ => ⟨S1048576, .f32⟩
  | .hbm, ⟨4, _⟩ => ⟨S1048576x8, .f32⟩
  | .hbm, ⟨5, _⟩ => ⟨S1048576, .f32⟩
  | .hbm, ⟨6, _⟩ => ⟨S1048576, .f32⟩
  | .hbm, ⟨7, _⟩ => ⟨S1048576x4, .f32⟩
  | .hbm, ⟨8, _⟩ => ⟨S25x25, .f32⟩
  | .hbm, ⟨9, _⟩ => ⟨S25, .f32⟩
  | .hbm, ⟨10, _⟩ => ⟨S20x25, .f32⟩
  | .hbm, ⟨11, _⟩ => ⟨S20, .f32⟩
  | .hbm, ⟨12, _⟩ => ⟨S1048576x1, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S1048576x1, .f32⟩
  | .hbm, ⟨17, _⟩ => ⟨S1048576x25, .f32⟩
  | .hbm, ⟨18, _⟩ => ⟨S25x25, .f32⟩
  | .hbm, ⟨19, _⟩ => ⟨S1048576x25, .f32⟩
  | .hbm, ⟨20, _⟩ => ⟨S1x25, .f32⟩
  | .hbm, ⟨21, _⟩ => ⟨S1048576x25, .f32⟩
  | .hbm, ⟨22, _⟩ => ⟨S1048576x25, .f32⟩
  | .hbm, ⟨23, _⟩ => ⟨S_, .f32⟩
  | .hbm, ⟨24, _⟩ => ⟨S1048576x25, .f32⟩
  | .hbm, ⟨25, _⟩ => ⟨S1048576x25, .f32⟩
  | .hbm, ⟨26, _⟩ => ⟨S25x20, .f32⟩
  | .hbm, ⟨27, _⟩ => ⟨S1048576x20, .f32⟩
  | .hbm, ⟨28, _⟩ => ⟨S1x20, .f32⟩
  | .hbm, ⟨29, _⟩ => ⟨S1048576x20, .f32⟩
  | .hbm, ⟨30, _⟩ => ⟨S1048576x20, .f32⟩
  | .hbm, ⟨31, _⟩ => ⟨S_, .f32⟩
  | .hbm, ⟨32, _⟩ => ⟨S1048576x20, .f32⟩
  | .hbm, ⟨33, _⟩ => ⟨S1048576x20, .f32⟩
  | .hbm, ⟨34, _⟩ => ⟨S1048576x8, .f32⟩
  | .hbm, ⟨35, _⟩ => ⟨S1048576x8, .f32⟩
  | .hbm, ⟨36, _⟩ => ⟨S1048576x4, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  concatenates_S1048576x1_S1048576x8_S1048576x1_S1048576x1_S1048576x8_S1048576x1_S1048576x1_S1048576x4_S1048576x25_d1 : Shape.Concatenates [S1048576x1, S1048576x8, S1048576x1, S1048576x1, S1048576x8, S1048576x1, S1048576x1, S1048576x4] S1048576x25 1
  transposes_S25x25_S25x25_1_0 : S25x25.Transposes [1, 0] S25x25
  bcast_S25_S1x25_1 : S25.BroadcastsInDim S1x25 (![1] : Fin 1 → Fin S1x25.rank)
  bcast_S1x25_S1048576x25_0_1 : S1x25.BroadcastsInDim S1048576x25 (![0, 1] : Fin 2 → Fin S1048576x25.rank)
  bcast_S_S1048576x25 : S_.BroadcastsInDim S1048576x25 (![] : Fin 0 → Fin S1048576x25.rank)
  transposes_S20x25_S25x20_1_0 : S20x25.Transposes [1, 0] S25x20
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  slices_S1048576x20_S1048576x8_0_0 : S1048576x20.Slices ![0, 0] S1048576x8
  slices_S1048576x20_S1048576x8_0_8 : S1048576x20.Slices ![0, 8] S1048576x8
  slices_S1048576x20_S1048576x4_0_16 : S1048576x20.Slices ![0, 16] S1048576x4
  dot_S1048576x25_S25x25_S1048576x25_1_0_0_1_n_n_wf : DotDims.WF S1048576x25 S25x25 S1048576x25 [1] [0] [0] [1] [] []
  dot_S1048576x25_S25x20_S1048576x20_1_0_0_1_n_n_wf : DotDims.WF S1048576x25 S25x20 S1048576x20 [1] [0] [0] [1] [] []

variable [Facts₀]

def dot_S1048576x25_S25x25_S1048576x25_1_0_0_1_n_n : DotDims S1048576x25 S25x25 S1048576x25 where
  lhsContracting := [1]
  rhsContracting := [0]
  lhsNonContracting := [0]
  rhsNonContracting := [1]
  lhsBatch := []
  rhsBatch := []
  wf := dot_S1048576x25_S25x25_S1048576x25_1_0_0_1_n_n_wf
def dot_S1048576x25_S25x20_S1048576x20_1_0_0_1_n_n : DotDims S1048576x25 S25x20 S1048576x20 where
  lhsContracting := [1]
  rhsContracting := [0]
  lhsNonContracting := [0]
  rhsNonContracting := [1]
  lhsBatch := []
  rhsBatch := []
  wf := dot_S1048576x25_S25x20_S1048576x20_1_0_0_1_n_n_wf

class Facts : Prop extends Facts₀ where

variable [Facts]
-- ==== Proof.EdgeMlp.lean ====
/-
  The per-edge network, as mathematics, and the two facts about it that do not depend on any program.

  Every edge is a ROW. Its 25 features stand side by side, taken from eight sources in this order: one number, eight
  numbers, one, one, eight, one, one, four (columns 0, 1–8, 9, 10, 11–18, 19, 20, 21–24). A dense layer sends a feature
  vector x to max(W x + b, 0), output j being the row j of W against x, plus b j, cut off below at zero; the network is
  two such layers, 25 → 25 → 20, and its 20 outputs leave as three ranges of columns (0–7, 8–15, 16–19).

  Nothing mixes two rows: output row r depends on row r of each source and on the weights, on nothing else. So the
  network applied to 2048 consecutive rows of the sources gives those 2048 rows of the network applied to all of
  them (`featRow_block`), whichever way the rows are cut into blocks. The sums are over the same 25 terms in the same
  order on every side, so no law of the extended reals beyond equality of the terms is used, and no finiteness.
-/
import Idealize.ShloMosaic.PureOps.Ideal.Laws
import Idealize.ShloMosaic.Lib.ValueIdx
import Idealize.ShloMosaic.Lib.Pipeline.Value

noncomputable section

namespace Cert.EdgeMlp

open Idealize.ShloMosaic Idealize.ShloMosaic.ValueIdx

/-- One dense layer and its rectifier at output `j`: `max (∑ q, x q · W j q + b j) 0`, the zero being the f32 zero word
    (both programs write that word; it is never evaluated here). -/
def dense {n k : ℕ} (W : (⟨2, ![n, k]⟩ : Shape).Idx → EReal) (b : (⟨1, ![n]⟩ : Shape).Idx → EReal)
    (x : Fin k → EReal) (j : Fin n) : EReal :=
  max ((∑ q : Fin k, x q * W (ix2 j q)) + b (ix1 j)) (Ideal.ofBits .f32 0x00000000#32)

/-- The two layers, 25 → 25 → 20. -/
def mlp (W1 : (⟨2, ![25, 25]⟩ : Shape).Idx → EReal) (b1 : (⟨1, ![25]⟩ : Shape).Idx → EReal)
    (W2 : (⟨2, ![20, 25]⟩ : Shape).Idx → EReal) (b2 : (⟨1, ![20]⟩ : Shape).Idx → EReal)
    (x : Fin 25 → EReal) : Fin 20 → EReal :=
  dense W2 b2 (dense W1 b1 x)

/-- A vector stood up as a one-column matrix: row `p` holds entry `p`. -/
def col {n : ℕ} (v : (⟨1, ![n]⟩ : Shape).Idx → EReal) : (⟨2, ![n, 1]⟩ : Shape).Idx → EReal :=
  fun i => v (ix1 (i 0))

/-- Row `p` of the feature matrix: column `q` comes from the source whose range of columns holds `q`, at `q` less the
    columns before that source. -/
def featRow {n : ℕ} (c0 : (⟨2, ![n, 1]⟩ : Shape).Idx → EReal) (c1 : (⟨2, ![n, 8]⟩ : Shape).Idx → EReal)
    (c2 c3 : (⟨2, ![n, 1]⟩ : Shape).Idx → EReal) (c4 : (⟨2, ![n, 8]⟩ : Shape).Idx → EReal)
    (c5 c6 : (⟨2, ![n, 1]⟩ : Shape).Idx → EReal) (c7 : (⟨2, ![n, 4]⟩ : Shape).Idx → EReal)
    (p : Fin n) (q : Fin 25) : EReal :=
  if h0 : q.val < 1 then c0 (ix2 p ⟨0, Nat.one_pos⟩)
  else if h1 : q.val < 9 then c1 (ix2 p ⟨q.val - 1, by omega⟩)
  else if h2 : q.val < 10 then c2 (ix2 p ⟨0, Nat.one_pos⟩)
  else if h3 : q.val < 11 then c3 (ix2 p ⟨0, Nat.one_pos⟩)
  else if h4 : q.val < 19 then c4 (ix2 p ⟨q.val - 11, by omega⟩)
  else if h5 : q.val < 20 then c5 (ix2 p ⟨0, Nat.one_pos⟩)
  else if h6 : q.val < 21 then c6 (ix2 p ⟨0, Nat.one_pos⟩)
  else c7 (ix2 p ⟨q.val - 21, by have := q.isLt; omega⟩)

/-- The eight sources joined along the columns ARE the feature matrix: the join read at row `p`, column `q`, is the
    source whose span holds `q`, at the same row (a join read at an index is one of its pieces there). For any number
    of rows: a block of rows and the whole array alike. -/
theorem concat_eq_featRow {n : ℕ} (c0 : (⟨2, ![n, 1]⟩ : Shape).Idx → EReal) (c1 : (⟨2, ![n, 8]⟩ : Shape).Idx → EReal)
    (c2 c3 : (⟨2, ![n, 1]⟩ : Shape).Idx → EReal) (c4 : (⟨2, ![n, 8]⟩ : Shape).Idx → EReal)
    (c5 c6 : (⟨2, ![n, 1]⟩ : Shape).Idx → EReal) (c7 : (⟨2, ![n, 4]⟩ : Shape).Idx → EReal)
    (h : Shape.Concatenates (([⟨⟨2, ![n, 1]⟩, c0⟩, ⟨⟨2, ![n, 8]⟩, c1⟩, ⟨⟨2, ![n, 1]⟩, c2⟩, ⟨⟨2, ![n, 1]⟩, c3⟩,
      ⟨⟨2, ![n, 8]⟩, c4⟩, ⟨⟨2, ![n, 1]⟩, c5⟩, ⟨⟨2, ![n, 1]⟩, c6⟩, ⟨⟨2, ![n, 4]⟩, c7⟩] :
        List ((s : Shape) × (s.Idx → EReal))).map (·.1)) ⟨2, ![n, 25]⟩ 1)
    (p : Fin n) (q : Fin 25) :
    concatenate ⟨2, ![n, 25]⟩ 1 [⟨⟨2, ![n, 1]⟩, c0⟩, ⟨⟨2, ![n, 8]⟩, c1⟩, ⟨⟨2, ![n, 1]⟩, c2⟩, ⟨⟨2, ![n, 1]⟩, c3⟩,
      ⟨⟨2, ![n, 8]⟩, c4⟩, ⟨⟨2, ![n, 1]⟩, c5⟩, ⟨⟨2, ![n, 1]⟩, c6⟩, ⟨⟨2, ![n, 4]⟩, c7⟩] h (ix2 p q)
      = featRow c0 c1 c2 c3 c4 c5 c6 c7 p q := by
  have hq : q.val < 25 := q.isLt
  unfold featRow
  by_cases h0 : q.val < 1
  · rw [dif_pos h0]
    exact concatenate_apply_piece 1 _ h (ix2 p q) 0 (by show (0 : ℕ) < 8; omega) ⟨2, ![n, 1]⟩ c0 rfl rfl 0 rfl
      (ix2 p ⟨0, Nat.one_pos⟩) (fun b hb => by
        match b with
        | ⟨0, _⟩ => rfl
        | ⟨1, _⟩ => exact absurd rfl hb)
      (by show 0 + 0 = q.val; omega)
  by_cases h1 : q.val < 9
  · rw [dif_neg h0, dif_pos h1]
    exact concatenate_apply_piece 1 _ h (ix2 p q) 1 (by show (1 : ℕ) < 8; omega) ⟨2, ![n, 8]⟩ c1 rfl rfl 1 rfl
      (ix2 p ⟨q.val - 1, by omega⟩) (fun b hb => by
        match b with
        | ⟨0, _⟩ => rfl
        | ⟨1, _⟩ => exact absurd rfl hb)
      (by show 1 + (q.val - 1) = q.val; omega)
  by_cases h2 : q.val < 10
  · rw [dif_neg h0, dif_neg h1, dif_pos h2]
    exact concatenate_apply_piece 1 _ h (ix2 p q) 2 (by show (2 : ℕ) < 8; omega) ⟨2, ![n, 1]⟩ c2 rfl rfl 9 rfl
      (ix2 p ⟨0, Nat.one_pos⟩) (fun b hb => by
        match b with
        | ⟨0, _⟩ => rfl
        | ⟨1, _⟩ => exact absurd rfl hb)
      (by show 9 + 0 = q.val; omega)
  by_cases h3 : q.val < 11
  · rw [dif_neg h0, dif_neg h1, dif_neg h2, dif_pos h3]
    exact concatenate_apply_piece 1 _ h (ix2 p q) 3 (by show (3 : ℕ) < 8; omega) ⟨2, ![n, 1]⟩ c3 rfl rfl 10 rfl
      (ix2 p ⟨0, Nat.one_pos⟩) (fun b hb => by
        match b with
        | ⟨0, _⟩ => rfl
        | ⟨1, _⟩ => exact absurd rfl hb)
      (by show 10 + 0 = q.val; omega)
  by_cases h4 : q.val < 19
  · rw [dif_neg h0, dif_neg h1, dif_neg h2, dif_neg h3, dif_pos h4]
    exact concatenate_apply_piece 1 _ h (ix2 p q) 4 (by show (4 : ℕ) < 8; omega) ⟨2, ![n, 8]⟩ c4 rfl rfl 11 rfl
      (ix2 p ⟨q.val - 11, by omega⟩) (fun b hb => by
        match b with
        | ⟨0, _⟩ => rfl
        | ⟨1, _⟩ => exact absurd rfl hb)
      (by show 11 + (q.val - 11) = q.val; omega)
  by_cases h5 : q.val < 20
  · rw [dif_neg h0, dif_neg h1, dif_neg h2, dif_neg h3, dif_neg h4, dif_pos h5]
    exact concatenate_apply_piece 1 _ h (ix2 p q) 5 (by show (5 : ℕ) < 8; omega) ⟨2, ![n, 1]⟩ c5 rfl rfl 19 rfl
      (ix2 p ⟨0, Nat.one_pos⟩) (fun b hb => by
        match b with
        | ⟨0, _⟩ => rfl
        | ⟨1, _⟩ => exact absurd rfl hb)
      (by show 19 + 0 = q.val; omega)
  by_cases h6 : q.val < 21
  · rw [dif_neg h0, dif_neg h1, dif_neg h2, dif_neg h3, dif_neg h4, dif_neg h5, dif_pos h6]
    exact concatenate_apply_piece 1 _ h (ix2 p q) 6 (by show (6 : ℕ) < 8; omega) ⟨2, ![n, 1]⟩ c6 rfl rfl 20 rfl
      (ix2 p ⟨0, Nat.one_pos⟩) (fun b hb => by
        match b with
        | ⟨0, _⟩ => rfl
        | ⟨1, _⟩ => exact absurd rfl hb)
      (by show 20 + 0 = q.val; omega)
  · rw [dif_neg h0, dif_neg h1, dif_neg h2, dif_neg h3, dif_neg h4, dif_neg h5, dif_neg h6]
    exact concatenate_apply_piece 1 _ h (ix2 p q) 7 (by show (7 : ℕ) < 8; omega) ⟨2, ![n, 4]⟩ c7 rfl rfl 21 rfl
      (ix2 p ⟨q.val - 21, by omega⟩) (fun b hb => by
        match b with
        | ⟨0, _⟩ => rfl
        | ⟨1, _⟩ => exact absurd rfl hb)
      (by show 21 + (q.val - 21) = q.val; omega)

/-- `x` is the block of 2048 consecutive rows of `A` that starts at row `2048 · T`. -/
def IsRowBlock {w : ℕ} (T : ℕ) (x : (⟨2, ![2048, w]⟩ : Shape).Idx → EReal)
    (A : (⟨2, ![1048576, w]⟩ : Shape).Idx → EReal) : Prop :=
  ∀ (p : Fin 2048) (e : Fin w) (r : Fin 1048576), r.val = T * 2048 + p.val → x (ix2 p e) = A (ix2 r e)

/-- Row `p` of the features of the `T`-th blocks of rows is row `2048 · T + p` of the features of the arrays: each column
    is read from one source at that row. -/
theorem featRow_block (T : ℕ)
    (x0 : (⟨2, ![2048, 1]⟩ : Shape).Idx → EReal) (x1 : (⟨2, ![2048, 8]⟩ : Shape).Idx → EReal)
    (x2 x3 : (⟨2, ![2048, 1]⟩ : Shape).Idx → EReal) (x4 : (⟨2, ![2048, 8]⟩ : Shape).Idx → EReal)
    (x5 x6 : (⟨2, ![2048, 1]⟩ : Shape).Idx → EReal) (x7 : (⟨2, ![2048, 4]⟩ : Shape).Idx → EReal)
    (A0 : (⟨2, ![1048576, 1]⟩ : Shape).Idx → EReal) (A1 : (⟨2, ![1048576, 8]⟩ : Shape).Idx → EReal)
    (A2 A3 : (⟨2, ![1048576, 1]⟩ : Shape).Idx → EReal) (A4 : (⟨2, ![1048576, 8]⟩ : Shape).Idx → EReal)
    (A5 A6 : (⟨2, ![1048576, 1]⟩ : Shape).Idx → EReal) (A7 : (⟨2, ![1048576, 4]⟩ : Shape).Idx → EReal)
    (h0 : IsRowBlock T x0 A0) (h1 : IsRowBlock T x1 A1) (h2 : IsRowBlock T x2 A2) (h3 : IsRowBlock T x3 A3)
    (h4 : IsRowBlock T x4 A4) (h5 : IsRowBlock T x5 A5) (h6 : IsRowBlock T x6 A6) (h7 : IsRowBlock T x7 A7)
    (p : Fin 2048) (r : Fin 1048576) (hr : r.val = T * 2048 + p.val) :
    featRow x0 x1 x2 x3 x4 x5 x6 x7 p = featRow A0 A1 A2 A3 A4 A5 A6 A7 r := by
  funext q
  unfold featRow
  split_ifs
  · exact h0 p _ r hr
  · exact h1 p _ r hr
  · exact h2 p _ r hr
  · exact h3 p _ r hr
  · exact h4 p _ r hr
  · exact h5 p _ r hr
  · exact h6 p _ r hr
  · exact h7 p _ r hr

/-- What each output array holds: at row `r`, column `j` of a range of `w` columns starting at column `o`, output
    `o + j` of the network on row `r` of the features, the one-number sources stood up as columns. -/
def outCols (o w : ℕ) (how : o + w ≤ 20)
    (c0 : (⟨2, ![1048576, 1]⟩ : Shape).Idx → EReal) (c1 : (⟨2, ![1048576, 8]⟩ : Shape).Idx → EReal)
    (c2 c3 : (⟨2, ![1048576, 1]⟩ : Shape).Idx → EReal) (c4 : (⟨2, ![1048576, 8]⟩ : Shape).Idx → EReal)
    (c5 c6 : (⟨2, ![1048576, 1]⟩ : Shape).Idx → EReal) (c7 : (⟨2, ![1048576, 4]⟩ : Shape).Idx → EReal)
    (W1 : (⟨2, ![25, 25]⟩ : Shape).Idx → EReal) (b1 : (⟨1, ![25]⟩ : Shape).Idx → EReal)
    (W2 : (⟨2, ![20, 25]⟩ : Shape).Idx → EReal) (b2 : (⟨1, ![20]⟩ : Shape).Idx → EReal) :
    (⟨2, ![1048576, w]⟩ : Shape).Idx → EReal :=
  fun i => mlp W1 b1 W2 b2 (featRow c0 c1 c2 c3 c4 c5 c6 c7 (i 0)) ⟨o + (i 1).val, by have := idx2_lt1 i; omega⟩

end Cert.EdgeMlp

end
-- ==== Proof.KernelRow.lean ====
/-
  The kernel's arithmetic on one block of 2048 rows, read at a row and a column.

  On a block the body joins the eight loaded pieces along the columns into a 2048 × 25 matrix X, multiplies by the
  transposed first weight matrix into a zero accumulator, adds the first bias spread over the rows, cuts off below at
  zero, and does the same again with the second weights and bias: a 2048 × 20 matrix, of which three ranges of columns
  are stored. Over the extended reals a product into a zero accumulator is the plain sum over the 25 joined columns,
  a transposed matrix read at (q, k) is the matrix at (k, q), and a bias spread over the rows read at (p, k) is the
  bias at k. So entry (p, j) of the 2048 × 20 matrix is output j of the two-layer network on row p of the features.
-/
import proofs.«169402_j19971597926853_2_alg».proof.Proof.Gen.KernelIdeal.Skeleton
import proofs.«169402_j19971597926853_2_alg».proof.Proof.EdgeMlp
import Idealize.ShloMosaic.Lib.ValueLayout
import Idealize.ShloMosaic.PureOps.Ideal.Laws

noncomputable section

namespace Cert.KernelIdeal.Body

open Cert.KernelIdeal Cert.KernelIdeal.Gen Cert.EdgeMlp Idealize.ShloMosaic Idealize.ShloMosaic.ValueIdx

/-! ## The two products' operand indices

With one contracted axis, the left operand of output (p, j) at contraction coordinate k is read at (p, k), the right at
(k, j): the four coordinates, for each of the body's two products. -/

theorem lhsA_0 (i : S2048x25.Idx) (q : dot_S2048x25_S25x25_S2048x25_1_0_0_1_n_n.contr.Idx) : (dot_S2048x25_S25x25_S2048x25_1_0_0_1_n_n.lhsIdx i q 0).val = (i 0).val := by
  unfold DotDims.lhsIdx
  rw [dif_neg (show ¬(0 : Fin S2048x25.rank) ∈ dot_S2048x25_S25x25_S2048x25_1_0_0_1_n_n.lhsBatch by decide), dif_pos (show (0 : Fin S2048x25.rank) ∈ dot_S2048x25_S25x25_S2048x25_1_0_0_1_n_n.lhsNonContracting by decide)]
  rfl
theorem lhsA_1 (i : S2048x25.Idx) (q : dot_S2048x25_S25x25_S2048x25_1_0_0_1_n_n.contr.Idx) : (dot_S2048x25_S25x25_S2048x25_1_0_0_1_n_n.lhsIdx i q 1).val = (q ⟨0, by decide⟩).val :=
  dot_S2048x25_S25x25_S2048x25_1_0_0_1_n_n.lhsIdx_val_of_single rfl i q
theorem rhsA_0 (i : S2048x25.Idx) (q : dot_S2048x25_S25x25_S2048x25_1_0_0_1_n_n.contr.Idx) : (dot_S2048x25_S25x25_S2048x25_1_0_0_1_n_n.rhsIdx i q 0).val = (q ⟨0, by decide⟩).val :=
  dot_S2048x25_S25x25_S2048x25_1_0_0_1_n_n.rhsIdx_val_of_single rfl i q
theorem rhsA_1 (i : S2048x25.Idx) (q : dot_S2048x25_S25x25_S2048x25_1_0_0_1_n_n.contr.Idx) : (dot_S2048x25_S25x25_S2048x25_1_0_0_1_n_n.rhsIdx i q 1).val = (i 1).val := by
  unfold DotDims.rhsIdx
  rw [dif_neg (show ¬(1 : Fin S25x25.rank) ∈ dot_S2048x25_S25x25_S2048x25_1_0_0_1_n_n.rhsBatch by decide), dif_pos (show (1 : Fin S25x25.rank) ∈ dot_S2048x25_S25x25_S2048x25_1_0_0_1_n_n.rhsNonContracting by decide)]
  rfl

theorem lhsB_0 (i : S2048x20.Idx) (q : dot_S2048x25_S25x20_S2048x20_1_0_0_1_n_n.contr.Idx) : (dot_S2048x25_S25x20_S2048x20_1_0_0_1_n_n.lhsIdx i q 0).val = (i 0).val := by
  unfold DotDims.lhsIdx
  rw [dif_neg (show ¬(0 : Fin S2048x25.rank) ∈ dot_S2048x25_S25x20_S2048x20_1_0_0_1_n_n.lhsBatch by decide), dif_pos (show (0 : Fin S2048x25.rank) ∈ dot_S2048x25_S25x20_S2048x20_1_0_0_1_n_n.lhsNonContracting by decide)]
  rfl
theorem lhsB_1 (i : S2048x20.Idx) (q : dot_S2048x25_S25x20_S2048x20_1_0_0_1_n_n.contr.Idx) : (dot_S2048x25_S25x20_S2048x20_1_0_0_1_n_n.lhsIdx i q 1).val = (q ⟨0, by decide⟩).val :=
  dot_S2048x25_S25x20_S2048x20_1_0_0_1_n_n.lhsIdx_val_of_single rfl i q
theorem rhsB_0 (i : S2048x20.Idx) (q : dot_S2048x25_S25x20_S2048x20_1_0_0_1_n_n.contr.Idx) : (dot_S2048x25_S25x20_S2048x20_1_0_0_1_n_n.rhsIdx i q 0).val = (q ⟨0, by decide⟩).val :=
  dot_S2048x25_S25x20_S2048x20_1_0_0_1_n_n.rhsIdx_val_of_single rfl i q
theorem rhsB_1 (i : S2048x20.Idx) (q : dot_S2048x25_S25x20_S2048x20_1_0_0_1_n_n.contr.Idx) : (dot_S2048x25_S25x20_S2048x20_1_0_0_1_n_n.rhsIdx i q 1).val = (i 1).val := by
  unfold DotDims.rhsIdx
  rw [dif_neg (show ¬(1 : Fin S25x20.rank) ∈ dot_S2048x25_S25x20_S2048x20_1_0_0_1_n_n.rhsBatch by decide), dif_pos (show (1 : Fin S25x20.rank) ∈ dot_S2048x25_S25x20_S2048x20_1_0_0_1_n_n.rhsNonContracting by decide)]
  rfl

/-! ## A product into a zero accumulator, at an entry -/

/-- The first product into zeros, at (p, j): the sum over the 25 feature columns k of L (p, k) · R (k, j). -/
theorem matmulA_at (L : FVec Ideal S2048x25 .f32) (R : FVec Ideal S25x25 .f32) (p : Fin 2048) (j : Fin 25) :
    matmul dot_S2048x25_S25x25_S2048x25_1_0_0_1_n_n none L R (constant (F := Ideal) S2048x25 .f32 0x00000000#32) (ix2 p j)
      = ∑ k : Fin 25, L (ix2 p k) * R (ix2 k j) := by
  simp only [matmul]
  rw [Ideal.matmul_constant_zero_apply, ← Equiv.sum_comp (contrEquiv1 dot_S2048x25_S25x25_S2048x25_1_0_0_1_n_n 25 rfl rfl).symm]
  refine Finset.sum_congr rfl fun k _ => ?_
  have hk := contrEquiv1_symm_val dot_S2048x25_S25x25_S2048x25_1_0_0_1_n_n 25 rfl rfl k
  have el : dot_S2048x25_S25x25_S2048x25_1_0_0_1_n_n.lhsIdx (ix2 p j) ((contrEquiv1 dot_S2048x25_S25x25_S2048x25_1_0_0_1_n_n 25 rfl rfl).symm k) = ix2 p k := funext fun a => Fin.ext (by
    match a with
    | ⟨0, _⟩ => exact lhsA_0 _ _
    | ⟨1, _⟩ => exact (lhsA_1 _ _).trans hk)
  have er : dot_S2048x25_S25x25_S2048x25_1_0_0_1_n_n.rhsIdx (ix2 p j) ((contrEquiv1 dot_S2048x25_S25x25_S2048x25_1_0_0_1_n_n 25 rfl rfl).symm k) = ix2 k j := funext fun a => Fin.ext (by
    match a with
    | ⟨0, _⟩ => exact (rhsA_0 _ _).trans hk
    | ⟨1, _⟩ => exact rhsA_1 _ _)
  rw [el, er]

/-- The second product into zeros, at (p, j): the sum over the 25 hidden units k of L (p, k) · R (k, j). -/
theorem matmulB_at (L : FVec Ideal S2048x25 .f32) (R : FVec Ideal S25x20 .f32) (p : Fin 2048) (j : Fin 20) :
    matmul dot_S2048x25_S25x20_S2048x20_1_0_0_1_n_n none L R (constant (F := Ideal) S2048x20 .f32 0x00000000#32) (ix2 p j)
      = ∑ k : Fin 25, L (ix2 p k) * R (ix2 k j) := by
  simp only [matmul]
  rw [Ideal.matmul_constant_zero_apply, ← Equiv.sum_comp (contrEquiv1 dot_S2048x25_S25x20_S2048x20_1_0_0_1_n_n 25 rfl rfl).symm]
  refine Finset.sum_congr rfl fun k _ => ?_
  have hk := contrEquiv1_symm_val dot_S2048x25_S25x20_S2048x20_1_0_0_1_n_n 25 rfl rfl k
  have el : dot_S2048x25_S25x20_S2048x20_1_0_0_1_n_n.lhsIdx (ix2 p j) ((contrEquiv1 dot_S2048x25_S25x20_S2048x20_1_0_0_1_n_n 25 rfl rfl).symm k) = ix2 p k := funext fun a => Fin.ext (by
    match a with
    | ⟨0, _⟩ => exact lhsB_0 _ _
    | ⟨1, _⟩ => exact (lhsB_1 _ _).trans hk)
  have er : dot_S2048x25_S25x20_S2048x20_1_0_0_1_n_n.rhsIdx (ix2 p j) ((contrEquiv1 dot_S2048x25_S25x20_S2048x20_1_0_0_1_n_n 25 rfl rfl).symm k) = ix2 k j := funext fun a => Fin.ext (by
    match a with
    | ⟨0, _⟩ => exact (rhsB_0 _ _).trans hk
    | ⟨1, _⟩ => exact rhsB_1 _ _)
  rw [el, er]

/-! ## One layer of the body, at an entry -/

/-- The first layer as the body spells it — product with the transposed weights into zeros, plus the bias cast to one
    row and spread over the rows, cut off below at the zero word — at (p, k) is the dense layer on row p of `X`. -/
theorem layerA_at (X : FVec Ideal S2048x25 .f32) (W : Vec Ideal S25x25 .f32) (b : Vec Ideal S25 .f32)
    (p : Fin 2048) (k : Fin 25) :
    maximumf (addf (matmul dot_S2048x25_S25x25_S2048x25_1_0_0_1_n_n none X (transpose S25x25 [1, 0] W transposes_S25x25_p1_0_S25x25 : FVec Ideal S25x25 .f32)
        (constant (F := Ideal) S2048x25 .f32 0x00000000#32))
      (broadcastTo S2048x25 (shapeCast S1x25 b shapeCasts_S25_S1x25 : FVec Ideal S1x25 .f32) broadcasts_S1x25_S2048x25))
      (broadcast S2048x25 (Scalar.ofBits (F := Ideal) .f32 0x00000000#32)) (ix2 p k)
      = dense W b (fun q => X (ix2 p q)) k := by
  rw [maximumf_apply, addf_apply, broadcast_apply, matmulA_at, broadcastTo_1b_ab_apply, shapeCast_a_1a_apply]
  unfold dense
  refine congrArg₂ max (congrArg₂ (· + ·) (Finset.sum_congr rfl fun q _ => ?_) rfl) rfl
  rw [transpose_ix2_apply]

/-- The second layer likewise, at (p, j). -/
theorem layerB_at (X : FVec Ideal S2048x25 .f32) (W : Vec Ideal S20x25 .f32) (b : Vec Ideal S20 .f32)
    (p : Fin 2048) (j : Fin 20) :
    maximumf (addf (matmul dot_S2048x25_S25x20_S2048x20_1_0_0_1_n_n none X (transpose S25x20 [1, 0] W transposes_S20x25_p1_0_S25x20 : FVec Ideal S25x20 .f32)
        (constant (F := Ideal) S2048x20 .f32 0x00000000#32))
      (broadcastTo S2048x20 (shapeCast S1x20 b shapeCasts_S20_S1x20 : FVec Ideal S1x20 .f32) broadcasts_S1x20_S2048x20))
      (broadcast S2048x20 (Scalar.ofBits (F := Ideal) .f32 0x00000000#32)) (ix2 p j)
      = dense W b (fun k => X (ix2 p k)) j := by
  rw [maximumf_apply, addf_apply, broadcast_apply, matmulB_at, broadcastTo_1b_ab_apply, shapeCast_a_1a_apply]
  unfold dense
  refine congrArg₂ max (congrArg₂ (· + ·) (Finset.sum_congr rfl fun q _ => ?_) rfl) rfl
  rw [transpose_ix2_apply]

/-! ## The body's 2048 × 20 value -/

/-- Entry (p, j) of what the body computes from its twelve loads: output `j` of the network, weights and biases the
    four small loads, on row `p` of the features joined from the eight row-block loads. -/
theorem network_at (v0 : Vec Ideal S2048x1 .f32) (v2 : Vec Ideal S2048x8 .f32) (v3 v5 : Vec Ideal S2048x1 .f32)
    (v7 : Vec Ideal S2048x8 .f32) (v8 v10 : Vec Ideal S2048x1 .f32) (v12 : Vec Ideal S2048x4 .f32)
    (v14 : Vec Ideal S25x25 .f32) (v17 : Vec Ideal S25 .f32) (v23 : Vec Ideal S20x25 .f32) (v26 : Vec Ideal S20 .f32)
    (p : Fin 2048) (j : Fin 20) :
    k0_pay3 (F := Ideal) v0 v2 v3 v5 v7 v8 v10 v12 v14 v17 v23 v26 (ix2 p j)
      = mlp v14 v17 v23 v26 (featRow v0 v2 v3 v5 v7 v8 v10 v12 p) j := by
  unfold k0_pay3
  dsimp only
  rw [layerB_at]
  unfold mlp
  refine congrArg (fun x => dense v23 v26 x j) (funext fun k => ?_)
  rw [layerA_at]
  refine congrArg (fun x => dense v14 v17 x k) (funext fun q => ?_)
  simp only [shapeCast_self]
  exact concat_eq_featRow v0 v2 v3 v5 v7 v8 v10 v12 _ p q

end Cert.KernelIdeal.Body

end
-- ==== Proof.KernelValue.lean ====
/-
  From blocks to arrays: the kernel's three results as whole-array functions of its arguments.

  The grid has 512 points. At point t every row-block window (the eight sources, the three results) sits on rows
  2048 · t to 2048 · t + 2047 of its array, all of its columns; the four weight and bias windows sit on their whole
  arrays at every point. So the loads at point t are the t-th blocks of rows of the sources, the body's value there is
  the network on those rows, and what is written back is the t-th block of rows of "the network on every row". The 512
  blocks of a result tile its 1048576 rows, so after the region each result array IS that function. The five one-number
  sources reach the region stood up as columns by the reshapes before it: entry p of the vector in row p.
-/
import proofs.«169402_j19971597926853_2_alg».proof.Proof.Gen.KernelIdeal.Value
import proofs.«169402_j19971597926853_2_alg».proof.Proof.KernelRow
import Idealize.ShloMosaic.Lib.StableHlo.Run

set_option maxRecDepth 16384

noncomputable section

namespace Cert.KernelIdeal.Whole

open Cert.KernelIdeal Cert.KernelIdeal.Gen Cert.EdgeMlp Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- A vector cast to one column reads, at row `p`, the vector's entry `p`: both are position `p` in row-major order. -/
theorem shapeCast_column {a : ℕ} (x : (⟨1, ![a]⟩ : Shape).Idx → EReal)
    (h : (⟨1, ![a]⟩ : Shape).ShapeCasts ⟨2, ![a, 1]⟩) (p : Fin a) (u : Fin 1) :
    shapeCast ⟨2, ![a, 1]⟩ x h (ix2 p u) = col x (ix2 p u) :=
  shapeCast_apply x h _ _ (by
    have hu : u.val = 0 := by omega
    rw [Shape.rowMajor_val_two, Shape.rowMajor_val_one]
    show p.val = p.val * 1 + u.val
    omega)

/-! ## Where each window sits at a point (decided over the 512 points) -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 1) = 0 :=
  (by decide +kernel : ∀ t : Fin grid0.N, win0_9.index t (0 : Fin 1) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 1) = 0 :=
  (by decide +kernel : ∀ t : Fin grid0.N, win0_11.index t (0 : Fin 1) = 0)

/-! ## The loads at a point are blocks of rows of the arrays, or whole arrays -/

theorem rowBlock0 (c : Dev nD) (t : Fin cfg0.N) : IsRowBlock t.val (iblk m c 0 t) (V m c main_v0) := by
  intro p e r hr
  show V m c main_v0 (((cfg0.win 0).blk t).view.emb (ix2 p e)) = V m c main_v0 (ix2 r e)
  refine congrArg (V m c main_v0) (funext fun a => Fin.ext ?_)
  obtain ⟨e0, e1⟩ := idx0 t
  have he : e.val < 1 := e.isLt
  match a with
  | ⟨0, _⟩ => show win0_0.index t (0 : Fin 2) * 2048 + 1 * p.val = r.val; rw [e0]; omega
  | ⟨1, _⟩ => show win0_0.index t (1 : Fin 2) * 1 + 1 * e.val = e.val; rw [e1]; omega

theorem rowBlock1 (c : Dev nD) (t : Fin cfg0.N) : IsRowBlock t.val (iblk m c 1 t) (V m c main_arg1) := by
  intro p e r hr
  show V m c main_arg1 (((cfg0.win 1).blk t).view.emb (ix2 p e)) = V m c main_arg1 (ix2 r e)
  refine congrArg (V m c main_arg1) (funext fun a => Fin.ext ?_)
  obtain ⟨e0, e1⟩ := idx1 t
  have he : e.val < 8 := e.isLt
  match a with
  | ⟨0, _⟩ => show win0_1.index t (0 : Fin 2) * 2048 + 1 * p.val = r.val; rw [e0]; omega
  | ⟨1, _⟩ => show win0_1.index t (1 : Fin 2) * 8 + 1 * e.val = e.val; rw [e1]; omega

theorem rowBlock2 (c : Dev nD) (t : Fin cfg0.N) : IsRowBlock t.val (iblk m c 2 t) (V m c main_v1) := by
  intro p e r hr
  show V m c main_v1 (((cfg0.win 2).blk t).view.emb (ix2 p e)) = V m c main_v1 (ix2 r e)
  refine congrArg (V m c main_v1) (funext fun a => Fin.ext ?_)
  obtain ⟨e0, e1⟩ := idx2 t
  have he : e.val < 1 := e.isLt
  match a with
  | ⟨0, _⟩ => show win0_2.index t (0 : Fin 2) * 2048 + 1 * p.val = r.val; rw [e0]; omega
  | ⟨1, _⟩ => show win0_2.index t (1 : Fin 2) * 1 + 1 * e.val = e.val; rw [e1]; omega

theorem rowBlock3 (c : Dev nD) (t : Fin cfg0.N) : IsRowBlock t.val (iblk m c 3 t) (V m c main_v2) := by
  intro p e r hr
  show V m c main_v2 (((cfg0.win 3).blk t).view.emb (ix2 p e)) = V m c main_v2 (ix2 r e)
  refine congrArg (V m c main_v2) (funext fun a => Fin.ext ?_)
  obtain ⟨e0, e1⟩ := idx3 t
  have he : e.val < 1 := e.isLt
  match a with
  | ⟨0, _⟩ => show win0_3.index t (0 : Fin 2) * 2048 + 1 * p.val = r.val; rw [e0]; omega
  | ⟨1, _⟩ => show win0_3.index t (1 : Fin 2) * 1 + 1 * e.val = e.val; rw [e1]; omega

theorem rowBlock4 (c : Dev nD) (t : Fin cfg0.N) : IsRowBlock t.val (iblk m c 4 t) (V m c main_arg4) := by
  intro p e r hr
  show V m c main_arg4 (((cfg0.win 4).blk t).view.emb (ix2 p e)) = V m c main_arg4 (ix2 r e)
  refine congrArg (V m c main_arg4) (funext fun a => Fin.ext ?_)
  obtain ⟨e0, e1⟩ := idx4 t
  have he : e.val < 8 := e.isLt
  match a with
  | ⟨0, _⟩ => show win0_4.index t (0 : Fin 2) * 2048 + 1 * p.val = r.val; rw [e0]; omega
  | ⟨1, _⟩ => show win0_4.index t (1 : Fin 2) * 8 + 1 * e.val = e.val; rw [e1]; omega

theorem rowBlock5 (c : Dev nD) (t : Fin cfg0.N) : IsRowBlock t.val (iblk m c 5 t) (V m c main_v3) := by
  intro p e r hr
  show V m c main_v3 (((cfg0.win 5).blk t).view.emb (ix2 p e)) = V m c main_v3 (ix2 r e)
  refine congrArg (V m c main_v3) (funext fun a => Fin.ext ?_)
  obtain ⟨e0, e1⟩ := idx5 t
  have he : e.val < 1 := e.isLt
  match a with
  | ⟨0, _⟩ => show win0_5.index t (0 : Fin 2) * 2048 + 1 * p.val = r.val; rw [e0]; omega
  | ⟨1, _⟩ => show win0_5.index t (1 : Fin 2) * 1 + 1 * e.val = e.val; rw [e1]; omega

theorem rowBlock6 (c : Dev nD) (t : Fin cfg0.N) : IsRowBlock t.val (iblk m c 6 t) (V m c main_v4) := by
  intro p e r hr
  show V m c main_v4 (((cfg0.win 6).blk t).view.emb (ix2 p e)) = V m c main_v4 (ix2 r e)
  refine congrArg (V m c main_v4) (funext fun a => Fin.ext ?_)
  obtain ⟨e0, e1⟩ := idx6 t
  have he : e.val < 1 := e.isLt
  match a with
  | ⟨0, _⟩ => show win0_6.index t (0 : Fin 2) * 2048 + 1 * p.val = r.val; rw [e0]; omega
  | ⟨1, _⟩ => show win0_6.index t (1 : Fin 2) * 1 + 1 * e.val = e.val; rw [e1]; omega

theorem rowBlock7 (c : Dev nD) (t : Fin cfg0.N) : IsRowBlock t.val (iblk m c 7 t) (V m c main_arg7) := by
  intro p e r hr
  show V m c main_arg7 (((cfg0.win 7).blk t).view.emb (ix2 p e)) = V m c main_arg7 (ix2 r e)
  refine congrArg (V m c main_arg7) (funext fun a => Fin.ext ?_)
  obtain ⟨e0, e1⟩ := idx7 t
  have he : e.val < 4 := e.isLt
  match a with
  | ⟨0, _⟩ => show win0_7.index t (0 : Fin 2) * 2048 + 1 * p.val = r.val; rw [e0]; omega
  | ⟨1, _⟩ => show win0_7.index t (1 : Fin 2) * 4 + 1 * e.val = e.val; rw [e1]; omega

theorem whole8 (c : Dev nD) (t : Fin cfg0.N) : iblk m c 8 t = V m c main_arg8 := by
  funext y
  show V m c main_arg8 (((cfg0.win 8).blk t).view.emb y) = V m c main_arg8 y
  refine congrArg (V m c main_arg8) (funext fun a => Fin.ext ?_)
  obtain ⟨e0, e1⟩ := idx8 t
  match a with
  | ⟨0, _⟩ => show win0_8.index t (0 : Fin 2) * 25 + 1 * (y 0).val = (y 0).val; rw [e0]; omega
  | ⟨1, _⟩ => show win0_8.index t (1 : Fin 2) * 25 + 1 * (y 1).val = (y 1).val; rw [e1]; omega

theorem whole9 (c : Dev nD) (t : Fin cfg0.N) : iblk m c 9 t = V m c main_arg9 := by
  funext y
  show V m c main_arg9 (((cfg0.win 9).blk t).view.emb y) = V m c main_arg9 y
  refine congrArg (V m c main_arg9) (funext fun a => Fin.ext ?_)
  have e0 := idx9 t
  match a with
  | ⟨0, _⟩ => show win0_9.index t (0 : Fin 1) * 25 + 1 * (y 0).val = (y 0).val; rw [e0]; omega

theorem whole10 (c : Dev nD) (t : Fin cfg0.N) : iblk m c 10 t = V m c main_arg10 := by
  funext y
  show V m c main_arg10 (((cfg0.win 10).blk t).view.emb y) = V m c main_arg10 y
  refine congrArg (V m c main_arg10) (funext fun a => Fin.ext ?_)
  obtain ⟨e0, e1⟩ := idx10 t
  match a with
  | ⟨0, _⟩ => show win0_10.index t (0 : Fin 2) * 20 + 1 * (y 0).val = (y 0).val; rw [e0]; omega
  | ⟨1, _⟩ => show win0_10.index t (1 : Fin 2) * 25 + 1 * (y 1).val = (y 1).val; rw [e1]; omega

theorem whole11 (c : Dev nD) (t : Fin cfg0.N) : iblk m c 11 t = V m c main_arg11 := by
  funext y
  show V m c main_arg11 (((cfg0.win 11).blk t).view.emb y) = V m c main_arg11 y
  refine congrArg (V m c main_arg11) (funext fun a => Fin.ext ?_)
  have e0 := idx11 t
  match a with
  | ⟨0, _⟩ => show win0_11.index t (0 : Fin 1) * 20 + 1 * (y 0).val = (y 0).val; rw [e0]; omega

/-! ## The first result (columns 0–7) -/

/-- The first result array as the region leaves it, of the arrays the region finds. -/
abbrev resA (c : Dev nD) : S1048576x8.Idx → EReal :=
  outCols 0 8 (by decide) (V m c main_v0) (V m c main_arg1) (V m c main_v1) (V m c main_v2) (V m c main_arg4) (V m c main_v3) (V m c main_v4) (V m c main_arg7) (V m c main_arg8) (V m c main_arg9) (V m c main_arg10) (V m c main_arg11)

/-- At one point of the grid, over any loads: if the eight row-block loads are the `T`-th blocks of rows of eight arrays,
    then what the body leaves in this output's buffer, at row `y 0`, column `y 1`, is the network's output `0 + y 1` on row
    `2048 · T + y 0` of those arrays' features (the stored piece is the body's 2048 × 20 value read 0 columns to the
    right; the loads are whole buffers). -/
theorem outA_point (T : ℕ) (x0 : Vec Ideal S2048x1 .f32) (x1 : Vec Ideal S2048x8 .f32) (x2 x3 : Vec Ideal S2048x1 .f32)
    (x4 : Vec Ideal S2048x8 .f32) (x5 x6 : Vec Ideal S2048x1 .f32) (x7 : Vec Ideal S2048x4 .f32)
    (x8 : Vec Ideal S25x25 .f32) (x9 : Vec Ideal S25 .f32) (x10 : Vec Ideal S20x25 .f32) (x11 : Vec Ideal S20 .f32)
    (A0 : S1048576x1.Idx → EReal) (A1 : S1048576x8.Idx → EReal) (A2 A3 : S1048576x1.Idx → EReal)
    (A4 : S1048576x8.Idx → EReal) (A5 A6 : S1048576x1.Idx → EReal) (A7 : S1048576x4.Idx → EReal)
    (h0 : IsRowBlock T x0 A0) (h1 : IsRowBlock T x1 A1) (h2 : IsRowBlock T x2 A2) (h3 : IsRowBlock T x3 A3)
    (h4 : IsRowBlock T x4 A4) (h5 : IsRowBlock T x5 A5) (h6 : IsRowBlock T x6 A6) (h7 : IsRowBlock T x7 A7)
    (y : S2048x8.Idx) (i : S1048576x8.Idx) (hi0 : (i 0).val = T * 2048 + (y 0).val) (hi1 : (i 1).val = (y 1).val) :
    out0_12 (F := Ideal) x0 x1 x2 x3 x4 x5 x6 x7 x8 x9 x10 x11 y = outCols 0 8 (by decide) A0 A1 A2 A3 A4 A5 A6 A7 x8 x9 x10 x11 i := by
  obtain ⟨p, q, rfl⟩ : ∃ (p : Fin 2048) (q : Fin 8), y = ix2 p q := ⟨y 0, y 1, eq_ix2 y⟩
  obtain ⟨r, s, rfl⟩ : ∃ (r : Fin 1048576) (s : Fin 8), i = ix2 r s := ⟨i 0, i 1, eq_ix2 i⟩
  have hr : r.val = T * 2048 + p.val := hi0
  have hs : s.val = q.val := hi1
  have hq : q.val < 8 := q.isLt
  unfold out0_12
  rw [Value.canon12_eq]
  show k0_pay3 (F := Ideal) (View.ld x0 r0_0) (View.ld x1 r0_1) (View.ld x2 r0_0) (View.ld x3 r0_0) (View.ld x4 r0_1)
    (View.ld x5 r0_0) (View.ld x6 r0_0) (View.ld x7 r0_2) (View.ld x8 r0_3) (View.ld x9 r0_4) (View.ld x10 r0_5)
    (View.ld x11 r0_6) (Value.ix12_0 (ix2 p q)) = _
  simp only [View.ld_unit_zero (S := S2048x1) zero2, View.ld_unit_zero (S := S2048x8) zero2,
    View.ld_unit_zero (S := S2048x4) zero2, View.ld_unit_zero (S := S25x25) zero2, View.ld_unit_zero (S := S25) zero1,
    View.ld_unit_zero (S := S20x25) zero2, View.ld_unit_zero (S := S20) zero1]
  have ey : Value.ix12_0 (ix2 p q) = ix2 p (⟨0 + q.val, by omega⟩ : Fin 20) := funext fun a => Fin.ext (by
    match a with
    | ⟨0, _⟩ => rfl
    | ⟨1, _⟩ => show q.val = 0 + q.val; omega)
  rw [ey, Body.network_at]
  unfold outCols
  show mlp x8 x9 x10 x11 (featRow x0 x1 x2 x3 x4 x5 x6 x7 p) _ = mlp x8 x9 x10 x11 (featRow A0 A1 A2 A3 A4 A5 A6 A7 r) _
  rw [featRow_block T x0 x1 x2 x3 x4 x5 x6 x7 A0 A1 A2 A3 A4 A5 A6 A7 h0 h1 h2 h3 h4 h5 h6 h7 p r hr]
  exact congrArg (mlp x8 x9 x10 x11 (featRow A0 A1 A2 A3 A4 A5 A6 A7 r)) (Fin.ext (by show 0 + q.val = 0 + s.val; omega))

/-- What point `t` writes back is block `t` of the result: rows `2048 · t` to `2048 · t + 2047`, all 8 columns. -/
theorem flushedA_eq (c : Dev nD) (t : Fin cfg0.N) :
    (dats m 0 c).flushed 12 t = ((cfg0.win 12).blk t).view.read (Elt Ideal) (resA m c) := by
  rw [Value.flushed12]
  funext y
  obtain ⟨e0, e1⟩ := idx12 t
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resA m c (((cfg0.win 12).blk t).view.emb y)
  rw [whole8 m c t, whole9 m c t, whole10 m c t, whole11 m c t]
  refine outA_point t.val (iblk m c 0 t) (iblk m c 1 t) (iblk m c 2 t) (iblk m c 3 t) (iblk m c 4 t) (iblk m c 5 t)
    (iblk m c 6 t) (iblk m c 7 t) (V m c main_arg8) (V m c main_arg9) (V m c main_arg10) (V m c main_arg11)
    (V m c main_v0) (V m c main_arg1) (V m c main_v1) (V m c main_v2) (V m c main_arg4) (V m c main_v3) (V m c main_v4)
    (V m c main_arg7) (rowBlock0 m c t) (rowBlock1 m c t) (rowBlock2 m c t) (rowBlock3 m c t) (rowBlock4 m c t)
    (rowBlock5 m c t) (rowBlock6 m c t) (rowBlock7 m c t) y (((cfg0.win 12).blk t).view.emb y) ?_ ?_
  · show win0_12.index t (0 : Fin 2) * 2048 + 1 * (y 0).val = t.val * 2048 + (y 0).val; rw [e0]; omega
  · show win0_12.index t (1 : Fin 2) * 8 + 1 * (y 1).val = (y 1).val; rw [e1]; omega

/-- Every entry of the result lies in some point's block: row `r` in the block of point `r / 2048`. -/
theorem coverA (i : S1048576x8.Idx) :
    ∃ t : Fin cfg0.N, (cfg0.win 12).flush t = true ∧ i ∈ ((cfg0.win 12).blk t).view.set := by
  have hi0 : (i 0).val < 1048576 := (i 0).isLt
  have hi1 : (i 1).val < 8 := (i 1).isLt
  have hN : cfg0.N = 512 := N_0
  let t : Fin cfg0.N := ⟨(i 0).val / 2048, by rw [hN]; omega⟩
  have ht : t.val = (i 0).val / 2048 := rfl
  obtain ⟨e0, e1⟩ := idx12 t
  refine ⟨t, flush0_12 t, ?_⟩
  show i ∈ ((View.whole main_v5_0).slice (win0_12.rect t)).set
  rw [View.set_slice_whole, Rect.mem_set_unit]
  intro a
  match a with
  | ⟨0, _⟩ =>
    show win0_12.index t (0 : Fin 2) * 2048 ≤ (i 0).val ∧ (i 0).val < win0_12.index t (0 : Fin 2) * 2048 + 2048
    rw [e0, ht]; omega
  | ⟨1, _⟩ =>
    show win0_12.index t (1 : Fin 2) * 8 ≤ (i 1).val ∧ (i 1).val < win0_12.index t (1 : Fin 2) * 8 + 8
    rw [e1]; omega

/-- So after the region the first result array holds the network's outputs 0–7 on every row. -/
theorem finalA (c : Dev nD) : (dats m 0 c).arrAt 12 cfg0.N = resA m c :=
  (dats m 0 c).arrAt_eq_of_cover 12 (resA m c) (fun t _ => flushedA_eq m c t) coverA

/-! ## The second result (columns 8–15) -/

/-- The second result array as the region leaves it, of the arrays the region finds. -/
abbrev resB (c : Dev nD) : S1048576x8.Idx → EReal :=
  outCols 8 8 (by decide) (V m c main_v0) (V m c main_arg1) (V m c main_v1) (V m c main_v2) (V m c main_arg4) (V m c main_v3) (V m c main_v4) (V m c main_arg7) (V m c main_arg8) (V m c main_arg9) (V m c main_arg10) (V m c main_arg11)

/-- At one point of the grid, over any loads: if the eight row-block loads are the `T`-th blocks of rows of eight arrays,
    then what the body leaves in this output's buffer, at row `y 0`, column `y 1`, is the network's output `8 + y 1` on row
    `2048 · T + y 0` of those arrays' features (the stored piece is the body's 2048 × 20 value read 8 columns to the
    right; the loads are whole buffers). -/
theorem outB_point (T : ℕ) (x0 : Vec Ideal S2048x1 .f32) (x1 : Vec Ideal S2048x8 .f32) (x2 x3 : Vec Ideal S2048x1 .f32)
    (x4 : Vec Ideal S2048x8 .f32) (x5 x6 : Vec Ideal S2048x1 .f32) (x7 : Vec Ideal S2048x4 .f32)
    (x8 : Vec Ideal S25x25 .f32) (x9 : Vec Ideal S25 .f32) (x10 : Vec Ideal S20x25 .f32) (x11 : Vec Ideal S20 .f32)
    (A0 : S1048576x1.Idx → EReal) (A1 : S1048576x8.Idx → EReal) (A2 A3 : S1048576x1.Idx → EReal)
    (A4 : S1048576x8.Idx → EReal) (A5 A6 : S1048576x1.Idx → EReal) (A7 : S1048576x4.Idx → EReal)
    (h0 : IsRowBlock T x0 A0) (h1 : IsRowBlock T x1 A1) (h2 : IsRowBlock T x2 A2) (h3 : IsRowBlock T x3 A3)
    (h4 : IsRowBlock T x4 A4) (h5 : IsRowBlock T x5 A5) (h6 : IsRowBlock T x6 A6) (h7 : IsRowBlock T x7 A7)
    (y : S2048x8.Idx) (i : S1048576x8.Idx) (hi0 : (i 0).val = T * 2048 + (y 0).val) (hi1 : (i 1).val = (y 1).val) :
    out0_13 (F := Ideal) x0 x1 x2 x3 x4 x5 x6 x7 x8 x9 x10 x11 y = outCols 8 8 (by decide) A0 A1 A2 A3 A4 A5 A6 A7 x8 x9 x10 x11 i := by
  obtain ⟨p, q, rfl⟩ : ∃ (p : Fin 2048) (q : Fin 8), y = ix2 p q := ⟨y 0, y 1, eq_ix2 y⟩
  obtain ⟨r, s, rfl⟩ : ∃ (r : Fin 1048576) (s : Fin 8), i = ix2 r s := ⟨i 0, i 1, eq_ix2 i⟩
  have hr : r.val = T * 2048 + p.val := hi0
  have hs : s.val = q.val := hi1
  have hq : q.val < 8 := q.isLt
  unfold out0_13
  rw [Value.canon13_eq]
  show k0_pay3 (F := Ideal) (View.ld x0 r0_0) (View.ld x1 r0_1) (View.ld x2 r0_0) (View.ld x3 r0_0) (View.ld x4 r0_1)
    (View.ld x5 r0_0) (View.ld x6 r0_0) (View.ld x7 r0_2) (View.ld x8 r0_3) (View.ld x9 r0_4) (View.ld x10 r0_5)
    (View.ld x11 r0_6) (Value.ix13_0 (ix2 p q)) = _
  simp only [View.ld_unit_zero (S := S2048x1) zero2, View.ld_unit_zero (S := S2048x8) zero2,
    View.ld_unit_zero (S := S2048x4) zero2, View.ld_unit_zero (S := S25x25) zero2, View.ld_unit_zero (S := S25) zero1,
    View.ld_unit_zero (S := S20x25) zero2, View.ld_unit_zero (S := S20) zero1]
  have ey : Value.ix13_0 (ix2 p q) = ix2 p (⟨8 + q.val, by omega⟩ : Fin 20) := funext fun a => Fin.ext (by
    match a with
    | ⟨0, _⟩ => rfl
    | ⟨1, _⟩ => show q.val + 8 = 8 + q.val; omega)
  rw [ey, Body.network_at]
  unfold outCols
  show mlp x8 x9 x10 x11 (featRow x0 x1 x2 x3 x4 x5 x6 x7 p) _ = mlp x8 x9 x10 x11 (featRow A0 A1 A2 A3 A4 A5 A6 A7 r) _
  rw [featRow_block T x0 x1 x2 x3 x4 x5 x6 x7 A0 A1 A2 A3 A4 A5 A6 A7 h0 h1 h2 h3 h4 h5 h6 h7 p r hr]
  exact congrArg (mlp x8 x9 x10 x11 (featRow A0 A1 A2 A3 A4 A5 A6 A7 r)) (Fin.ext (by show 8 + q.val = 8 + s.val; omega))

/-- What point `t` writes back is block `t` of the result: rows `2048 · t` to `2048 · t + 2047`, all 8 columns. -/
theorem flushedB_eq (c : Dev nD) (t : Fin cfg0.N) :
    (dats m 0 c).flushed 13 t = ((cfg0.win 13).blk t).view.read (Elt Ideal) (resB m c) := by
  rw [Value.flushed13]
  funext y
  obtain ⟨e0, e1⟩ := idx13 t
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resB m c (((cfg0.win 13).blk t).view.emb y)
  rw [whole8 m c t, whole9 m c t, whole10 m c t, whole11 m c t]
  refine outB_point t.val (iblk m c 0 t) (iblk m c 1 t) (iblk m c 2 t) (iblk m c 3 t) (iblk m c 4 t) (iblk m c 5 t)
    (iblk m c 6 t) (iblk m c 7 t) (V m c main_arg8) (V m c main_arg9) (V m c main_arg10) (V m c main_arg11)
    (V m c main_v0) (V m c main_arg1) (V m c main_v1) (V m c main_v2) (V m c main_arg4) (V m c main_v3) (V m c main_v4)
    (V m c main_arg7) (rowBlock0 m c t) (rowBlock1 m c t) (rowBlock2 m c t) (rowBlock3 m c t) (rowBlock4 m c t)
    (rowBlock5 m c t) (rowBlock6 m c t) (rowBlock7 m c t) y (((cfg0.win 13).blk t).view.emb y) ?_ ?_
  · show win0_13.index t (0 : Fin 2) * 2048 + 1 * (y 0).val = t.val * 2048 + (y 0).val; rw [e0]; omega
  · show win0_13.index t (1 : Fin 2) * 8 + 1 * (y 1).val = (y 1).val; rw [e1]; omega

/-- Every entry of the result lies in some point's block: row `r` in the block of point `r / 2048`. -/
theorem coverB (i : S1048576x8.Idx) :
    ∃ t : Fin cfg0.N, (cfg0.win 13).flush t = true ∧ i ∈ ((cfg0.win 13).blk t).view.set := by
  have hi0 : (i 0).val < 1048576 := (i 0).isLt
  have hi1 : (i 1).val < 8 := (i 1).isLt
  have hN : cfg0.N = 512 := N_0
  let t : Fin cfg0.N := ⟨(i 0).val / 2048, by rw [hN]; omega⟩
  have ht : t.val = (i 0).val / 2048 := rfl
  obtain ⟨e0, e1⟩ := idx13 t
  refine ⟨t, flush0_13 t, ?_⟩
  show i ∈ ((View.whole main_v5_1).slice (win0_13.rect t)).set
  rw [View.set_slice_whole, Rect.mem_set_unit]
  intro a
  match a with
  | ⟨0, _⟩ =>
    show win0_13.index t (0 : Fin 2) * 2048 ≤ (i 0).val ∧ (i 0).val < win0_13.index t (0 : Fin 2) * 2048 + 2048
    rw [e0, ht]; omega
  | ⟨1, _⟩ =>
    show win0_13.index t (1 : Fin 2) * 8 ≤ (i 1).val ∧ (i 1).val < win0_13.index t (1 : Fin 2) * 8 + 8
    rw [e1]; omega

/-- So after the region the second result array holds the network's outputs 8–15 on every row. -/
theorem finalB (c : Dev nD) : (dats m 0 c).arrAt 13 cfg0.N = resB m c :=
  (dats m 0 c).arrAt_eq_of_cover 13 (resB m c) (fun t _ => flushedB_eq m c t) coverB

/-! ## The third result (columns 16–19) -/

/-- The third result array as the region leaves it, of the arrays the region finds. -/
abbrev resE (c : Dev nD) : S1048576x4.Idx → EReal :=
  outCols 16 4 (by decide) (V m c main_v0) (V m c main_arg1) (V m c main_v1) (V m c main_v2) (V m c main_arg4) (V m c main_v3) (V m c main_v4) (V m c main_arg7) (V m c main_arg8) (V m c main_arg9) (V m c main_arg10) (V m c main_arg11)

/-- At one point of the grid, over any loads: if the eight row-block loads are the `T`-th blocks of rows of eight arrays,
    then what the body leaves in this output's buffer, at row `y 0`, column `y 1`, is the network's output `16 + y 1` on row
    `2048 · T + y 0` of those arrays' features (the stored piece is the body's 2048 × 20 value read 16 columns to the
    right; the loads are whole buffers). -/
theorem outE_point (T : ℕ) (x0 : Vec Ideal S2048x1 .f32) (x1 : Vec Ideal S2048x8 .f32) (x2 x3 : Vec Ideal S2048x1 .f32)
    (x4 : Vec Ideal S2048x8 .f32) (x5 x6 : Vec Ideal S2048x1 .f32) (x7 : Vec Ideal S2048x4 .f32)
    (x8 : Vec Ideal S25x25 .f32) (x9 : Vec Ideal S25 .f32) (x10 : Vec Ideal S20x25 .f32) (x11 : Vec Ideal S20 .f32)
    (A0 : S1048576x1.Idx → EReal) (A1 : S1048576x8.Idx → EReal) (A2 A3 : S1048576x1.Idx → EReal)
    (A4 : S1048576x8.Idx → EReal) (A5 A6 : S1048576x1.Idx → EReal) (A7 : S1048576x4.Idx → EReal)
    (h0 : IsRowBlock T x0 A0) (h1 : IsRowBlock T x1 A1) (h2 : IsRowBlock T x2 A2) (h3 : IsRowBlock T x3 A3)
    (h4 : IsRowBlock T x4 A4) (h5 : IsRowBlock T x5 A5) (h6 : IsRowBlock T x6 A6) (h7 : IsRowBlock T x7 A7)
    (y : S2048x4.Idx) (i : S1048576x4.Idx) (hi0 : (i 0).val = T * 2048 + (y 0).val) (hi1 : (i 1).val = (y 1).val) :
    out0_14 (F := Ideal) x0 x1 x2 x3 x4 x5 x6 x7 x8 x9 x10 x11 y = outCols 16 4 (by decide) A0 A1 A2 A3 A4 A5 A6 A7 x8 x9 x10 x11 i := by
  obtain ⟨p, q, rfl⟩ : ∃ (p : Fin 2048) (q : Fin 4), y = ix2 p q := ⟨y 0, y 1, eq_ix2 y⟩
  obtain ⟨r, s, rfl⟩ : ∃ (r : Fin 1048576) (s : Fin 4), i = ix2 r s := ⟨i 0, i 1, eq_ix2 i⟩
  have hr : r.val = T * 2048 + p.val := hi0
  have hs : s.val = q.val := hi1
  have hq : q.val < 4 := q.isLt
  unfold out0_14
  rw [Value.canon14_eq]
  show k0_pay3 (F := Ideal) (View.ld x0 r0_0) (View.ld x1 r0_1) (View.ld x2 r0_0) (View.ld x3 r0_0) (View.ld x4 r0_1)
    (View.ld x5 r0_0) (View.ld x6 r0_0) (View.ld x7 r0_2) (View.ld x8 r0_3) (View.ld x9 r0_4) (View.ld x10 r0_5)
    (View.ld x11 r0_6) (Value.ix14_0 (ix2 p q)) = _
  simp only [View.ld_unit_zero (S := S2048x1) zero2, View.ld_unit_zero (S := S2048x8) zero2,
    View.ld_unit_zero (S := S2048x4) zero2, View.ld_unit_zero (S := S25x25) zero2, View.ld_unit_zero (S := S25) zero1,
    View.ld_unit_zero (S := S20x25) zero2, View.ld_unit_zero (S := S20) zero1]
  have ey : Value.ix14_0 (ix2 p q) = ix2 p (⟨16 + q.val, by omega⟩ : Fin 20) := funext fun a => Fin.ext (by
    match a with
    | ⟨0, _⟩ => rfl
    | ⟨1, _⟩ => show q.val + 16 = 16 + q.val; omega)
  rw [ey, Body.network_at]
  unfold outCols
  show mlp x8 x9 x10 x11 (featRow x0 x1 x2 x3 x4 x5 x6 x7 p) _ = mlp x8 x9 x10 x11 (featRow A0 A1 A2 A3 A4 A5 A6 A7 r) _
  rw [featRow_block T x0 x1 x2 x3 x4 x5 x6 x7 A0 A1 A2 A3 A4 A5 A6 A7 h0 h1 h2 h3 h4 h5 h6 h7 p r hr]
  exact congrArg (mlp x8 x9 x10 x11 (featRow A0 A1 A2 A3 A4 A5 A6 A7 r)) (Fin.ext (by show 16 + q.val = 16 + s.val; omega))

/-- What point `t` writes back is block `t` of the result: rows `2048 · t` to `2048 · t + 2047`, all 4 columns. -/
theorem flushedE_eq (c : Dev nD) (t : Fin cfg0.N) :
    (dats m 0 c).flushed 14 t = ((cfg0.win 14).blk t).view.read (Elt Ideal) (resE m c) := by
  rw [Value.flushed14]
  funext y
  obtain ⟨e0, e1⟩ := idx14 t
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resE m c (((cfg0.win 14).blk t).view.emb y)
  rw [whole8 m c t, whole9 m c t, whole10 m c t, whole11 m c t]
  refine outE_point t.val (iblk m c 0 t) (iblk m c 1 t) (iblk m c 2 t) (iblk m c 3 t) (iblk m c 4 t) (iblk m c 5 t)
    (iblk m c 6 t) (iblk m c 7 t) (V m c main_arg8) (V m c main_arg9) (V m c main_arg10) (V m c main_arg11)
    (V m c main_v0) (V m c main_arg1) (V m c main_v1) (V m c main_v2) (V m c main_arg4) (V m c main_v3) (V m c main_v4)
    (V m c main_arg7) (rowBlock0 m c t) (rowBlock1 m c t) (rowBlock2 m c t) (rowBlock3 m c t) (rowBlock4 m c t)
    (rowBlock5 m c t) (rowBlock6 m c t) (rowBlock7 m c t) y (((cfg0.win 14).blk t).view.emb y) ?_ ?_
  · show win0_14.index t (0 : Fin 2) * 2048 + 1 * (y 0).val = t.val * 2048 + (y 0).val; rw [e0]; omega
  · show win0_14.index t (1 : Fin 2) * 4 + 1 * (y 1).val = (y 1).val; rw [e1]; omega

/-- Every entry of the result lies in some point's block: row `r` in the block of point `r / 2048`. -/
theorem coverE (i : S1048576x4.Idx) :
    ∃ t : Fin cfg0.N, (cfg0.win 14).flush t = true ∧ i ∈ ((cfg0.win 14).blk t).view.set := by
  have hi0 : (i 0).val < 1048576 := (i 0).isLt
  have hi1 : (i 1).val < 4 := (i 1).isLt
  have hN : cfg0.N = 512 := N_0
  let t : Fin cfg0.N := ⟨(i 0).val / 2048, by rw [hN]; omega⟩
  have ht : t.val = (i 0).val / 2048 := rfl
  obtain ⟨e0, e1⟩ := idx14 t
  refine ⟨t, flush0_14 t, ?_⟩
  show i ∈ ((View.whole main_v5_2).slice (win0_14.rect t)).set
  rw [View.set_slice_whole, Rect.mem_set_unit]
  intro a
  match a with
  | ⟨0, _⟩ =>
    show win0_14.index t (0 : Fin 2) * 2048 ≤ (i 0).val ∧ (i 0).val < win0_14.index t (0 : Fin 2) * 2048 + 2048
    rw [e0, ht]; omega
  | ⟨1, _⟩ =>
    show win0_14.index t (1 : Fin 2) * 4 ≤ (i 1).val ∧ (i 1).val < win0_14.index t (1 : Fin 2) * 4 + 4
    rw [e1]; omega

/-- So after the region the third result array holds the network's outputs 16–19 on every row. -/
theorem finalE (c : Dev nD) : (dats m 0 c).arrAt 14 cfg0.N = resE m c :=
  (dats m 0 c).arrAt_eq_of_cover 14 (resE m c) (fun t _ => flushedE_eq m c t) coverE

/-! ## The arrays the region finds, and the run -/

theorem V_main_v0 (c : Dev nD) : (V m c main_v0 : S1048576x1.Idx → EReal) = col (m ((c : Thread nD τ).loc main_arg0)) := by
  have e : (V m c main_v0 : S1048576x1.Idx → EReal)
      = shapeCast S1048576x1 (m ((c : Thread nD τ).loc main_arg0)) shapeCasts_S1048576_S1048576x1 := by
    dsimp only [Gen.V, Gen.hostOps0]; after_results; rfl
  rw [e]
  funext i
  rw [eq_ix2 i]
  exact shapeCast_column _ _ _ _

theorem V_main_v1 (c : Dev nD) : (V m c main_v1 : S1048576x1.Idx → EReal) = col (m ((c : Thread nD τ).loc main_arg2)) := by
  have e : (V m c main_v1 : S1048576x1.Idx → EReal)
      = shapeCast S1048576x1 (m ((c : Thread nD τ).loc main_arg2)) shapeCasts_S1048576_S1048576x1 := by
    dsimp only [Gen.V, Gen.hostOps0]; after_results; rfl
  rw [e]
  funext i
  rw [eq_ix2 i]
  exact shapeCast_column _ _ _ _

theorem V_main_v2 (c : Dev nD) : (V m c main_v2 : S1048576x1.Idx → EReal) = col (m ((c : Thread nD τ).loc main_arg3)) := by
  have e : (V m c main_v2 : S1048576x1.Idx → EReal)
      = shapeCast S1048576x1 (m ((c : Thread nD τ).loc main_arg3)) shapeCasts_S1048576_S1048576x1 := by
    dsimp only [Gen.V, Gen.hostOps0]; after_results; rfl
  rw [e]
  funext i
  rw [eq_ix2 i]
  exact shapeCast_column _ _ _ _

theorem V_main_v3 (c : Dev nD) : (V m c main_v3 : S1048576x1.Idx → EReal) = col (m ((c : Thread nD τ).loc main_arg5)) := by
  have e : (V m c main_v3 : S1048576x1.Idx → EReal)
      = shapeCast S1048576x1 (m ((c : Thread nD τ).loc main_arg5)) shapeCasts_S1048576_S1048576x1 := by
    dsimp only [Gen.V, Gen.hostOps0]; after_results; rfl
  rw [e]
  funext i
  rw [eq_ix2 i]
  exact shapeCast_column _ _ _ _

theorem V_main_v4 (c : Dev nD) : (V m c main_v4 : S1048576x1.Idx → EReal) = col (m ((c : Thread nD τ).loc main_arg6)) := by
  have e : (V m c main_v4 : S1048576x1.Idx → EReal)
      = shapeCast S1048576x1 (m ((c : Thread nD τ).loc main_arg6)) shapeCasts_S1048576_S1048576x1 := by
    dsimp only [Gen.V, Gen.hostOps0]; after_results; rfl
  rw [e]
  funext i
  rw [eq_ix2 i]
  exact shapeCast_column _ _ _ _

/-- The kernel's run: each result array ends at the network on every row of the argument arrays, the arguments
    unchanged. -/
theorem run : θ_run defs (onTc (τ := τ) (main (F := Ideal))) ⟨m, fun _ => 0, ρ⟩ fun r => ∀ c : Dev nD,
      r.2.mem ((c : Thread nD τ).loc main_v5_0) = outCols 0 8 (by decide) (col (m ((c : Thread nD τ).loc main_arg0))) (m ((c : Thread nD τ).loc main_arg1)) (col (m ((c : Thread nD τ).loc main_arg2))) (col (m ((c : Thread nD τ).loc main_arg3))) (m ((c : Thread nD τ).loc main_arg4)) (col (m ((c : Thread nD τ).loc main_arg5))) (col (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v5_1) = outCols 8 8 (by decide) (col (m ((c : Thread nD τ).loc main_arg0))) (m ((c : Thread nD τ).loc main_arg1)) (col (m ((c : Thread nD τ).loc main_arg2))) (col (m ((c : Thread nD τ).loc main_arg3))) (m ((c : Thread nD τ).loc main_arg4)) (col (m ((c : Thread nD τ).loc main_arg5))) (col (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v5_2) = outCols 16 4 (by decide) (col (m ((c : Thread nD τ).loc main_arg0))) (m ((c : Thread nD τ).loc main_arg1)) (col (m ((c : Thread nD τ).loc main_arg2))) (col (m ((c : Thread nD τ).loc main_arg3))) (m ((c : Thread nD τ).loc main_arg4)) (col (m ((c : Thread nD τ).loc main_arg5))) (col (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Value.run_blocks m ρ)
  have hc := h c
  refine ⟨hc.1.trans ?_, hc.2.1.trans ?_, hc.2.2.1.trans ?_, hc.2.2.2⟩
  · rw [finalA m c]
    show outCols 0 8 _ (V m c main_v0) (V m c main_arg1) (V m c main_v1) (V m c main_v2) (V m c main_arg4) (V m c main_v3) (V m c main_v4) (V m c main_arg7) (V m c main_arg8) (V m c main_arg9) (V m c main_arg10) (V m c main_arg11) = _
    rw [V_main_v0, V_main_v1, V_main_v2, V_main_v3, V_main_v4, V_main_arg1, V_main_arg4, V_main_arg7, V_main_arg8,
      V_main_arg9, V_main_arg10, V_main_arg11]
  · rw [finalB m c]
    show outCols 8 8 _ (V m c main_v0) (V m c main_arg1) (V m c main_v1) (V m c main_v2) (V m c main_arg4) (V m c main_v3) (V m c main_v4) (V m c main_arg7) (V m c main_arg8) (V m c main_arg9) (V m c main_arg10) (V m c main_arg11) = _
    rw [V_main_v0, V_main_v1, V_main_v2, V_main_v3, V_main_v4, V_main_arg1, V_main_arg4, V_main_arg7, V_main_arg8,
      V_main_arg9, V_main_arg10, V_main_arg11]
  · rw [finalE m c]
    show outCols 16 4 _ (V m c main_v0) (V m c main_arg1) (V m c main_v1) (V m c main_v2) (V m c main_arg4) (V m c main_v3) (V m c main_v4) (V m c main_arg7) (V m c main_arg8) (V m c main_arg9) (V m c main_arg10) (V m c main_arg11) = _
    rw [V_main_v0, V_main_v1, V_main_v2, V_main_v3, V_main_v4, V_main_arg1, V_main_arg4, V_main_arg7, V_main_arg8,
      V_main_arg9, V_main_arg10, V_main_arg11]

end Cert.KernelIdeal.Whole

end
-- ==== Proof.RefRow.lean ====
/-
  The reference, read at a row and a column.

  The reference stands each one-number source up as a column, joins the eight sources along the columns into the
  1048576 × 25 feature matrix, and applies the same two layers to all rows at once: a product with the transposed
  weights, the bias spread over the rows, the cut-off at zero, twice; its three results are ranges of columns of the
  1048576 × 20 matrix. Read at row r, each product is the sum over the 25 joined columns, so entry (r, j) of that matrix
  is output j of the network on row r of the features: the same function of a row as the kernel's block value.
-/
import proofs.«169402_j19971597926853_2_alg».proof.Proof.Gen.ReferenceIdeal.Read
import proofs.«169402_j19971597926853_2_alg».proof.Proof.EdgeMlp

noncomputable section

namespace Cert.ReferenceIdeal.RefValue

open Cert.ReferenceIdeal Cert.ReferenceIdeal.Read Cert.EdgeMlp Idealize.ShloMosaic Idealize.ShloMosaic.ValueIdx

/-- The hidden layer at (r, k): the first dense layer on row `r` of the joined features. The left operand of the
    product is read at (r, q), the transposed weights at (q, k), that is the weights at (k, q); the spread bias at k. -/
theorem hidden_at (x0 : (⟨S1048576, .f32⟩ : BufTy).Contents (Elt Ideal))
    (x1 : (⟨S1048576x8, .f32⟩ : BufTy).Contents (Elt Ideal))
    (x2 x3 : (⟨S1048576, .f32⟩ : BufTy).Contents (Elt Ideal))
    (x4 : (⟨S1048576x8, .f32⟩ : BufTy).Contents (Elt Ideal))
    (x5 x6 : (⟨S1048576, .f32⟩ : BufTy).Contents (Elt Ideal))
    (x7 : (⟨S1048576x4, .f32⟩ : BufTy).Contents (Elt Ideal))
    (x8 : (⟨S25x25, .f32⟩ : BufTy).Contents (Elt Ideal))
    (x9 : (⟨S25, .f32⟩ : BufTy).Contents (Elt Ideal))
    (r : Fin 1048576) (k : Fin 25) :
    val_main_v11 (F := Ideal) x0 x1 x2 x3 x4 x5 x6 x7 x8 x9 (ix2 r k)
      = dense x8 x9 (featRow (val_main_v0 (F := Ideal) x0) x1 (val_main_v1 (F := Ideal) x2) (val_main_v2 (F := Ideal) x3) x4 (val_main_v3 (F := Ideal) x5) (val_main_v4 (F := Ideal) x6) x7 r) k := by
  rw [val_main_v11_apply, val_main_v10_apply, val_main_v7_apply, val_main_v9_apply, val_main_v8_apply,
    val_main_call0_v0_apply, val_main_call0_cst_apply, Ideal.maximumf_def, Ideal.addf_def, Ideal.ofBits_def]
  unfold dense
  refine congrArg₂ max (congrArg₂ (· + ·) (Finset.sum_congr rfl fun q _ => ?_) ?_) rfl
  · rw [val_main_v6_apply]
    have e1 : lidx_main_v7 (ix2 r k) q = ix2 r q := funext fun a => Fin.ext (by
      match a with
      | ⟨0, _⟩ => rfl
      | ⟨1, _⟩ => rfl)
    have e2 : idx_main_v6 (ridx_main_v7 (ix2 r k) q) = ix2 k q := funext fun a => Fin.ext (by
      match a with
      | ⟨0, _⟩ => rfl
      | ⟨1, _⟩ => rfl)
    rw [e1, e2]
    unfold val_main_v5
    rw [concat_eq_featRow]
  · exact congrArg x9 (funext fun a => Fin.ext (by
      match a with
      | ⟨0, _⟩ => rfl))

/-- The 1048576 × 20 matrix at (r, j): the second dense layer on the hidden row, that is the network on row `r`. -/
theorem network_at (x0 : (⟨S1048576, .f32⟩ : BufTy).Contents (Elt Ideal))
    (x1 : (⟨S1048576x8, .f32⟩ : BufTy).Contents (Elt Ideal))
    (x2 x3 : (⟨S1048576, .f32⟩ : BufTy).Contents (Elt Ideal))
    (x4 : (⟨S1048576x8, .f32⟩ : BufTy).Contents (Elt Ideal))
    (x5 x6 : (⟨S1048576, .f32⟩ : BufTy).Contents (Elt Ideal))
    (x7 : (⟨S1048576x4, .f32⟩ : BufTy).Contents (Elt Ideal))
    (x8 : (⟨S25x25, .f32⟩ : BufTy).Contents (Elt Ideal))
    (x9 : (⟨S25, .f32⟩ : BufTy).Contents (Elt Ideal))
    (x10 : (⟨S20x25, .f32⟩ : BufTy).Contents (Elt Ideal))
    (x11 : (⟨S20, .f32⟩ : BufTy).Contents (Elt Ideal))
    (r : Fin 1048576) (j : Fin 20) :
    val_main_v17 (F := Ideal) x0 x1 x2 x3 x4 x5 x6 x7 x8 x9 x10 x11 (ix2 r j)
      = mlp x8 x9 x10 x11 (featRow (val_main_v0 (F := Ideal) x0) x1 (val_main_v1 (F := Ideal) x2) (val_main_v2 (F := Ideal) x3) x4 (val_main_v3 (F := Ideal) x5) (val_main_v4 (F := Ideal) x6) x7 r) j := by
  rw [val_main_v17_apply, val_main_v16_apply, val_main_v13_apply, val_main_v15_apply, val_main_v14_apply,
    val_main_call1_v0_apply, val_main_call1_cst_apply, Ideal.maximumf_def, Ideal.addf_def, Ideal.ofBits_def]
  unfold mlp dense
  refine congrArg₂ max (congrArg₂ (· + ·) (Finset.sum_congr rfl fun k _ => ?_) ?_) rfl
  · rw [val_main_v12_apply]
    have e1 : lidx_main_v13 (ix2 r j) k = ix2 r k := funext fun a => Fin.ext (by
      match a with
      | ⟨0, _⟩ => rfl
      | ⟨1, _⟩ => rfl)
    have e2 : idx_main_v12 (ridx_main_v13 (ix2 r j) k) = ix2 j k := funext fun a => Fin.ext (by
      match a with
      | ⟨0, _⟩ => rfl
      | ⟨1, _⟩ => rfl)
    rw [e1, e2, hidden_at]
    rfl
  · exact congrArg x11 (funext fun a => Fin.ext (by
      match a with
      | ⟨0, _⟩ => rfl))

/-- The first result, at row `r`, column `j`: output `0 + j` of the network on row `r`. -/
theorem result_v18_at (x0 : (⟨S1048576, .f32⟩ : BufTy).Contents (Elt Ideal))
    (x1 : (⟨S1048576x8, .f32⟩ : BufTy).Contents (Elt Ideal))
    (x2 x3 : (⟨S1048576, .f32⟩ : BufTy).Contents (Elt Ideal))
    (x4 : (⟨S1048576x8, .f32⟩ : BufTy).Contents (Elt Ideal))
    (x5 x6 : (⟨S1048576, .f32⟩ : BufTy).Contents (Elt Ideal))
    (x7 : (⟨S1048576x4, .f32⟩ : BufTy).Contents (Elt Ideal))
    (x8 : (⟨S25x25, .f32⟩ : BufTy).Contents (Elt Ideal))
    (x9 : (⟨S25, .f32⟩ : BufTy).Contents (Elt Ideal))
    (x10 : (⟨S20x25, .f32⟩ : BufTy).Contents (Elt Ideal))
    (x11 : (⟨S20, .f32⟩ : BufTy).Contents (Elt Ideal))
    (r : Fin 1048576) (j : Fin 8) :
    val_main_v18 (F := Ideal) x0 x1 x2 x3 x4 x5 x6 x7 x8 x9 x10 x11 (ix2 r j)
      = mlp x8 x9 x10 x11 (featRow (val_main_v0 (F := Ideal) x0) x1 (val_main_v1 (F := Ideal) x2) (val_main_v2 (F := Ideal) x3) x4 (val_main_v3 (F := Ideal) x5) (val_main_v4 (F := Ideal) x6) x7 r) ⟨0 + j.val, by omega⟩ := by
  rw [val_main_v18_apply, ← network_at]
  exact congrArg (val_main_v17 (F := Ideal) x0 x1 x2 x3 x4 x5 x6 x7 x8 x9 x10 x11) (funext fun a => Fin.ext (by
    match a with
    | ⟨0, _⟩ => rfl
    | ⟨1, _⟩ => show j.val = 0 + j.val; omega))

/-- The second result, at row `r`, column `j`: output `8 + j` of the network on row `r`. -/
theorem result_v19_at (x0 : (⟨S1048576, .f32⟩ : BufTy).Contents (Elt Ideal))
    (x1 : (⟨S1048576x8, .f32⟩ : BufTy).Contents (Elt Ideal))
    (x2 x3 : (⟨S1048576, .f32⟩ : BufTy).Contents (Elt Ideal))
    (x4 : (⟨S1048576x8, .f32⟩ : BufTy).Contents (Elt Ideal))
    (x5 x6 : (⟨S1048576, .f32⟩ : BufTy).Contents (Elt Ideal))
    (x7 : (⟨S1048576x4, .f32⟩ : BufTy).Contents (Elt Ideal))
    (x8 : (⟨S25x25, .f32⟩ : BufTy).Contents (Elt Ideal))
    (x9 : (⟨S25, .f32⟩ : BufTy).Contents (Elt Ideal))
    (x10 : (⟨S20x25, .f32⟩ : BufTy).Contents (Elt Ideal))
    (x11 : (⟨S20, .f32⟩ : BufTy).Contents (Elt Ideal))
    (r : Fin 1048576) (j : Fin 8) :
    val_main_v19 (F := Ideal) x0 x1 x2 x3 x4 x5 x6 x7 x8 x9 x10 x11 (ix2 r j)
      = mlp x8 x9 x10 x11 (featRow (val_main_v0 (F := Ideal) x0) x1 (val_main_v1 (F := Ideal) x2) (val_main_v2 (F := Ideal) x3) x4 (val_main_v3 (F := Ideal) x5) (val_main_v4 (F := Ideal) x6) x7 r) ⟨8 + j.val, by omega⟩ := by
  rw [val_main_v19_apply, ← network_at]
  exact congrArg (val_main_v17 (F := Ideal) x0 x1 x2 x3 x4 x5 x6 x7 x8 x9 x10 x11) (funext fun a => Fin.ext (by
    match a with
    | ⟨0, _⟩ => rfl
    | ⟨1, _⟩ => rfl))

/-- The third result, at row `r`, column `j`: output `16 + j` of the network on row `r`. -/
theorem result_v20_at (x0 : (⟨S1048576, .f32⟩ : BufTy).Contents (Elt Ideal))
    (x1 : (⟨S1048576x8, .f32⟩ : BufTy).Contents (Elt Ideal))
    (x2 x3 : (⟨S1048576, .f32⟩ : BufTy).Contents (Elt Ideal))
    (x4 : (⟨S1048576x8, .f32⟩ : BufTy).Contents (Elt Ideal))
    (x5 x6 : (⟨S1048576, .f32⟩ : BufTy).Contents (Elt Ideal))
    (x7 : (⟨S1048576x4, .f32⟩ : BufTy).Contents (Elt Ideal))
    (x8 : (⟨S25x25, .f32⟩ : BufTy).Contents (Elt Ideal))
    (x9 : (⟨S25, .f32⟩ : BufTy).Contents (Elt Ideal))
    (x10 : (⟨S20x25, .f32⟩ : BufTy).Contents (Elt Ideal))
    (x11 : (⟨S20, .f32⟩ : BufTy).Contents (Elt Ideal))
    (r : Fin 1048576) (j : Fin 4) :
    val_main_v20 (F := Ideal) x0 x1 x2 x3 x4 x5 x6 x7 x8 x9 x10 x11 (ix2 r j)
      = mlp x8 x9 x10 x11 (featRow (val_main_v0 (F := Ideal) x0) x1 (val_main_v1 (F := Ideal) x2) (val_main_v2 (F := Ideal) x3) x4 (val_main_v3 (F := Ideal) x5) (val_main_v4 (F := Ideal) x6) x7 r) ⟨16 + j.val, by omega⟩ := by
  rw [val_main_v20_apply, ← network_at]
  exact congrArg (val_main_v17 (F := Ideal) x0 x1 x2 x3 x4 x5 x6 x7 x8 x9 x10 x11) (funext fun a => Fin.ext (by
    match a with
    | ⟨0, _⟩ => rfl
    | ⟨1, _⟩ => rfl))

end Cert.ReferenceIdeal.RefValue

end
-- ==== Proof.RefWhole.lean ====
/-
  The reference's three results as whole-array functions of its arguments: the same functions the kernel's results are.

  The reference stands a one-number source up as a column by broadcasting it along a new last axis of extent one: row p
  holds entry p, as the kernel's reshape does. With that, each result read at every (row, column) is the network's
  output on that row (the row-by-row reading of the reference), which is the whole-array function by definition.
-/
import proofs.«169402_j19971597926853_2_alg».proof.Proof.RefRow

noncomputable section

namespace Cert.ReferenceIdeal.RefValue

open Cert.ReferenceIdeal Cert.ReferenceIdeal.Read Cert.EdgeMlp Idealize.ShloMosaic Idealize.ShloMosaic.ValueIdx

/-! ## A vector broadcast along a new unit axis is the vector stood up as a column -/

theorem column_v0 (x : (⟨S1048576, .f32⟩ : BufTy).Contents (Elt Ideal)) : val_main_v0 (F := Ideal) x = col x := by
  funext i
  rw [val_main_v0_apply]
  exact congrArg x (funext fun a => Fin.ext (by
    match a with
    | ⟨0, _⟩ => rfl))

theorem column_v1 (x : (⟨S1048576, .f32⟩ : BufTy).Contents (Elt Ideal)) : val_main_v1 (F := Ideal) x = col x := by
  funext i
  rw [val_main_v1_apply]
  exact congrArg x (funext fun a => Fin.ext (by
    match a with
    | ⟨0, _⟩ => rfl))

theorem column_v2 (x : (⟨S1048576, .f32⟩ : BufTy).Contents (Elt Ideal)) : val_main_v2 (F := Ideal) x = col x := by
  funext i
  rw [val_main_v2_apply]
  exact congrArg x (funext fun a => Fin.ext (by
    match a with
    | ⟨0, _⟩ => rfl))

theorem column_v3 (x : (⟨S1048576, .f32⟩ : BufTy).Contents (Elt Ideal)) : val_main_v3 (F := Ideal) x = col x := by
  funext i
  rw [val_main_v3_apply]
  exact congrArg x (funext fun a => Fin.ext (by
    match a with
    | ⟨0, _⟩ => rfl))

theorem column_v4 (x : (⟨S1048576, .f32⟩ : BufTy).Contents (Elt Ideal)) : val_main_v4 (F := Ideal) x = col x := by
  funext i
  rw [val_main_v4_apply]
  exact congrArg x (funext fun a => Fin.ext (by
    match a with
    | ⟨0, _⟩ => rfl))

/-! ## The three results -/

/-- The whole array: the network's outputs 0–7 on every row of the arguments. -/
theorem result_v18_eq (x0 : (⟨S1048576, .f32⟩ : BufTy).Contents (Elt Ideal)) (x1 : (⟨S1048576x8, .f32⟩ : BufTy).Contents (Elt Ideal))
    (x2 x3 : (⟨S1048576, .f32⟩ : BufTy).Contents (Elt Ideal)) (x4 : (⟨S1048576x8, .f32⟩ : BufTy).Contents (Elt Ideal))
    (x5 x6 : (⟨S1048576, .f32⟩ : BufTy).Contents (Elt Ideal)) (x7 : (⟨S1048576x4, .f32⟩ : BufTy).Contents (Elt Ideal))
    (x8 : (⟨S25x25, .f32⟩ : BufTy).Contents (Elt Ideal)) (x9 : (⟨S25, .f32⟩ : BufTy).Contents (Elt Ideal))
    (x10 : (⟨S20x25, .f32⟩ : BufTy).Contents (Elt Ideal)) (x11 : (⟨S20, .f32⟩ : BufTy).Contents (Elt Ideal)) :
    val_main_v18 (F := Ideal) x0 x1 x2 x3 x4 x5 x6 x7 x8 x9 x10 x11 = outCols 0 8 (by decide) (col x0) x1 (col x2) (col x3) x4 (col x5) (col x6) x7 x8 x9 x10 x11 := by
  funext i
  obtain ⟨r, j, rfl⟩ : ∃ (r : Fin 1048576) (j : Fin 8), i = ix2 r j := ⟨i 0, i 1, eq_ix2 i⟩
  rw [result_v18_at, column_v0, column_v1, column_v2, column_v3, column_v4]
  rfl

/-- The whole array: the network's outputs 8–15 on every row of the arguments. -/
theorem result_v19_eq (x0 : (⟨S1048576, .f32⟩ : BufTy).Contents (Elt Ideal)) (x1 : (⟨S1048576x8, .f32⟩ : BufTy).Contents (Elt Ideal))
    (x2 x3 : (⟨S1048576, .f32⟩ : BufTy).Contents (Elt Ideal)) (x4 : (⟨S1048576x8, .f32⟩ : BufTy).Contents (Elt Ideal))
    (x5 x6 : (⟨S1048576, .f32⟩ : BufTy).Contents (Elt Ideal)) (x7 : (⟨S1048576x4, .f32⟩ : BufTy).Contents (Elt Ideal))
    (x8 : (⟨S25x25, .f32⟩ : BufTy).Contents (Elt Ideal)) (x9 : (⟨S25, .f32⟩ : BufTy).Contents (Elt Ideal))
    (x10 : (⟨S20x25, .f32⟩ : BufTy).Contents (Elt Ideal)) (x11 : (⟨S20, .f32⟩ : BufTy).Contents (Elt Ideal)) :
    val_main_v19 (F := Ideal) x0 x1 x2 x3 x4 x5 x6 x7 x8 x9 x10 x11 = outCols 8 8 (by decide) (col x0) x1 (col x2) (col x3) x4 (col x5) (col x6) x7 x8 x9 x10 x11 := by
  funext i
  obtain ⟨r, j, rfl⟩ : ∃ (r : Fin 1048576) (j : Fin 8), i = ix2 r j := ⟨i 0, i 1, eq_ix2 i⟩
  rw [result_v19_at, column_v0, column_v1, column_v2, column_v3, column_v4]
  rfl

/-- The whole array: the network's outputs 16–19 on every row of the arguments. -/
theorem result_v20_eq (x0 : (⟨S1048576, .f32⟩ : BufTy).Contents (Elt Ideal)) (x1 : (⟨S1048576x8, .f32⟩ : BufTy).Contents (Elt Ideal))
    (x2 x3 : (⟨S1048576, .f32⟩ : BufTy).Contents (Elt Ideal)) (x4 : (⟨S1048576x8, .f32⟩ : BufTy).Contents (Elt Ideal))
    (x5 x6 : (⟨S1048576, .f32⟩ : BufTy).Contents (Elt Ideal)) (x7 : (⟨S1048576x4, .f32⟩ : BufTy).Contents (Elt Ideal))
    (x8 : (⟨S25x25, .f32⟩ : BufTy).Contents (Elt Ideal)) (x9 : (⟨S25, .f32⟩ : BufTy).Contents (Elt Ideal))
    (x10 : (⟨S20x25, .f32⟩ : BufTy).Contents (Elt Ideal)) (x11 : (⟨S20, .f32⟩ : BufTy).Contents (Elt Ideal)) :
    val_main_v20 (F := Ideal) x0 x1 x2 x3 x4 x5 x6 x7 x8 x9 x10 x11 = outCols 16 4 (by decide) (col x0) x1 (col x2) (col x3) x4 (col x5) (col x6) x7 x8 x9 x10 x11 := by
  funext i
  obtain ⟨r, j, rfl⟩ : ∃ (r : Fin 1048576) (j : Fin 4), i = ix2 r j := ⟨i 0, i 1, eq_ix2 i⟩
  rw [result_v20_at, column_v0, column_v1, column_v2, column_v3, column_v4]
  rfl

end Cert.ReferenceIdeal.RefValue

end
-- ==== Proof.lean ====
/-
  The kernel and its reference compute the same per-edge network, over the extended reals.

  For each of 1048576 edges the inputs give a row of 25 features (a scalar, eight numbers, two scalars, eight numbers,
  two scalars, four numbers, side by side); two dense layers with a cut-off at zero, 25 → 25 → 20, act on that row; the
  20 outputs leave as three arrays of 8, 8 and 4 columns. The reference does this to all rows at once. The kernel walks
  512 blocks of 2048 rows, and on each block joins its loaded pieces, multiplies into zero accumulators and stores three
  ranges of columns. No row's result depends on another row, so block by block the kernel fills in exactly the
  reference's three arrays: each side's results are ONE function of the argument arrays (`Cert.EdgeMlp.outCols`), the
  kernel's by reading its blocks back into arrays (`Cert.KernelIdeal.Whole.run`), the reference's by reading its
  operations at an index (`Cert.ReferenceIdeal.RefValue.result_v18_eq` and its two companions). The sums on the two sides
  have the same 25 terms in the same order, so nothing about finiteness is used. The three frames are the programs'
  generated runs; nothing was rewritten by the idealization, so that conjunct is trivial.
-/
import proofs.«169402_j19971597926853_2_alg».proof.Defs
import proofs.«169402_j19971597926853_2_alg».proof.Proof.Gen.Kernel
import proofs.«169402_j19971597926853_2_alg».proof.Proof.Gen.Kernel.Skeleton
import proofs.«169402_j19971597926853_2_alg».proof.Proof.Gen.Kernel.Launch
import proofs.«169402_j19971597926853_2_alg».proof.Proof.Gen.Kernel.Points
import proofs.«169402_j19971597926853_2_alg».proof.Proof.Gen.Kernel.Frame
import proofs.«169402_j19971597926853_2_alg».proof.Proof.Gen.KernelIdeal
import proofs.«169402_j19971597926853_2_alg».proof.Proof.Gen.KernelIdeal.Skeleton
import proofs.«169402_j19971597926853_2_alg».proof.Proof.Gen.KernelIdeal.Launch
import proofs.«169402_j19971597926853_2_alg».proof.Proof.Gen.KernelIdeal.Points
import proofs.«169402_j19971597926853_2_alg».proof.Proof.Gen.KernelIdeal.Frame
import proofs.«169402_j19971597926853_2_alg».proof.Proof.Gen.ReferenceIdeal
import proofs.«169402_j19971597926853_2_alg».proof.Proof.Gen.Pre_finite_inputs
import proofs.«169402_j19971597926853_2_alg».proof.Proof.Gen.KernelIdeal.Value
import proofs.«169402_j19971597926853_2_alg».proof.Proof.Gen.ReferenceIdeal.Run
import proofs.«169402_j19971597926853_2_alg».proof.Proof.Gen.ReferenceIdeal.Read
import proofs.«169402_j19971597926853_2_alg».proof.Proof.KernelValue
import proofs.«169402_j19971597926853_2_alg».proof.Proof.RefWhole
import Idealize.ShloMosaic.Adequacy
import Idealize.ShloMosaic.Init

noncomputable section

namespace Cert.Proof

open Idealize.ShloMosaic Idealize.ShloMosaic.TcCoe Idealize.SL.Sem Cert.EdgeMlp

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the twelve arguments both programs end with the network's outputs on every row: columns
    0–7, 8–15 and 16–19 in the three results. -/
theorem algebraic : Cert.algebraic_KernelIdeal_ReferenceIdeal := by
  intro m ρ m' ρ' _ hagree
  refine ⟨fun c => outCols 0 8 (by decide) (col (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (col (m ((c.tc : Thread Cert.KernelIdeal.nD Cert.KernelIdeal.τ).loc Cert.KernelIdeal.main_arg2))) (col (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (col (m ((c.tc : Thread Cert.KernelIdeal.nD Cert.KernelIdeal.τ).loc Cert.KernelIdeal.main_arg5))) (col (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => outCols 8 8 (by decide) (col (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (col (m ((c.tc : Thread Cert.KernelIdeal.nD Cert.KernelIdeal.τ).loc Cert.KernelIdeal.main_arg2))) (col (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (col (m ((c.tc : Thread Cert.KernelIdeal.nD Cert.KernelIdeal.τ).loc Cert.KernelIdeal.main_arg5))) (col (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => outCols 16 4 (by decide) (col (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (col (m ((c.tc : Thread Cert.KernelIdeal.nD Cert.KernelIdeal.τ).loc Cert.KernelIdeal.main_arg2))) (col (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (col (m ((c.tc : Thread Cert.KernelIdeal.nD Cert.KernelIdeal.τ).loc Cert.KernelIdeal.main_arg5))) (col (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  have hc := h c
  refine ⟨hc.1.trans ?_, hc.2.1.trans ?_, hc.2.2.1.trans ?_, hc.2.2.2⟩
  · rw [a0, a1, a2, a3, a4, a5, a6, a7, a8, a9, a10, a11, Cert.ReferenceIdeal.Read.val_main_v18_eq]
    exact Cert.ReferenceIdeal.RefValue.result_v18_eq _ _ _ _ _ _ _ _ _ _ _ _
  · rw [a0, a1, a2, a3, a4, a5, a6, a7, a8, a9, a10, a11, Cert.ReferenceIdeal.Read.val_main_v19_eq]
    exact Cert.ReferenceIdeal.RefValue.result_v19_eq _ _ _ _ _ _ _ _ _ _ _ _
  · rw [a0, a1, a2, a3, a4, a5, a6, a7, a8, a9, a10, a11, Cert.ReferenceIdeal.Read.val_main_v20_eq]
    exact Cert.ReferenceIdeal.RefValue.result_v20_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
